-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S3 : Shape := ⟨1, ![3]⟩
abbrev S16x6x1x1 : Shape := ⟨4, ![16, 6, 1, 1]⟩
abbrev S2x3x512x512 : Shape := ⟨4, ![2, 3, 512, 512]⟩
abbrev S2x6x1x1 : Shape := ⟨4, ![2, 6, 1, 1]⟩
abbrev S1x3x512x512 : Shape := ⟨4, ![1, 3, 512, 512]⟩
abbrev S3x512x512 : Shape := ⟨3, ![3, 512, 512]⟩
abbrev S3x512 : Shape := ⟨2, ![3, 512]⟩
abbrev S3x512x1 : Shape := ⟨3, ![3, 512, 1]⟩
abbrev S3x1x512 : Shape := ⟨3, ![3, 1, 512]⟩
abbrev S3x1 : Shape := ⟨2, ![3, 1]⟩
abbrev S3x1x1 : Shape := ⟨3, ![3, 1, 1]⟩
abbrev S1x3x1x1 : Shape := ⟨4, ![1, 3, 1, 1]⟩
abbrev S16x6 : Shape := ⟨2, ![16, 6]⟩
abbrev S16x3 : Shape := ⟨2, ![16, 3]⟩
abbrev S1x3 : Shape := ⟨2, ![1, 3]⟩
abbrev S_ : Shape := ⟨0, ![]⟩

abbrev nBuf : Space → Nat
  | .hbm => 24
  | .vmem => 6
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S3, .f32⟩
  | .hbm, ⟨3, _⟩ => ⟨S16x6x1x1, .f32⟩
  | .hbm, ⟨4, _⟩ => ⟨S16x6, .f32⟩
  | .hbm, ⟨5, _⟩ => ⟨S16x3, .f32⟩
  | .hbm, ⟨6, _⟩ => ⟨S16x3, .f32⟩
  | .hbm, ⟨7, _⟩ => ⟨S1x3, .f32⟩
  | .hbm, ⟨8, _⟩ => ⟨S16x3, .f32⟩
  | .hbm, ⟨9, _⟩ => ⟨S16x3, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x3, .f32⟩
  | .hbm, ⟨16, _⟩ => ⟨S16x3, .f32⟩
  | .hbm, ⟨17, _⟩ => ⟨S16x3, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S2x3x512x512, .f32⟩
  | .local _ .vmem, ⟨1, _⟩ => ⟨S2x3x512x512, .f32⟩
  | .local _ .vmem, ⟨2, _⟩ => ⟨S2x3x512x512, .f32⟩
  | .local _ .vmem, ⟨3, _⟩ => ⟨S2x3x512x512, .f32⟩
  | .local _ .vmem, ⟨4, _⟩ => ⟨S2x6x1x1, .f32⟩
  | .local _ .vmem, ⟨5, _⟩ => ⟨S2x6x1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_off1 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let v3 : Index := Scalar.indexCast v2
  let c0 : Index := 0#32
  let c0_3 : Index := 0#32
  let c0_4 : Index := 0#32
  ![v3.toNat, 0, 0, 0]
def k0_off2 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let v48 : Index := Scalar.indexCast v2
  let c0_21 : Index := 0#32
  let c0_22 : Index := 0#32
  let c0_23 : Index := 0#32
  ![v48.toNat, 0, 0, 0]
def k0_off3 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let v52 : Index := Scalar.indexCast v2
  let c3 : Index := 3#32
  let c0_24 : Index := 0#32
  let c0_25 : Index := 0#32
  ![v52.toNat, 3, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x6x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S1x3x512x512 : 0 < S1x3x512x512.numel
  shapeCasts_S1x3x512x512_S3x512x512 : S1x3x512x512.ShapeCasts S3x512x512
  reduces_S3x512x512_S3x512 : S3x512x512.Reduces [2] S3x512
  shapeCasts_S3x512_S3x512x1 : S3x512.ShapeCasts S3x512x1
  reduces_S3x512x512_S3x512_2 : S3x512x512.Reduces [1] S3x512
  shapeCasts_S3x512_S3x1x512 : S3x512.ShapeCasts S3x1x512
  reduces_S3x512x1_S3x1 : S3x512x1.Reduces [1] S3x1
  shapeCasts_S3x1_S3x1x1 : S3x1.ShapeCasts S3x1x1
  reduces_S3x1x512_S3x1 : S3x1x512.Reduces [2] S3x1
  h_S1x3x1x1 : 0 < S1x3x1x1.numel
  shapeCasts_S1x3x1x1_S3x1x1 : S1x3x1x1.ShapeCasts S3x1x1
  shapeCasts_S3x1x1_S1x3x1x1 : S3x1x1.ShapeCasts S1x3x1x1
  shapeCasts_S16x6x1x1_S16x6 : S16x6x1x1.ShapeCasts S16x6
  slices_S16x6_S16x3_0_0 : S16x6.Slices ![0, 0] S16x3
  slices_S16x6_S16x3_0_3 : S16x6.Slices ![0, 3] S16x3
  bcast_S3_S1x3_1 : S3.BroadcastsInDim S1x3 (![1] : Fin 1 → Fin S1x3.rank)
  bcast_S1x3_S16x3_0_1 : S1x3.BroadcastsInDim S16x3 (![0, 1] : Fin 2 → Fin S16x3.rank)
  reducesTo_S16x3_S_d0_1 : S16x3.ReducesTo [0, 1] S_
  h_S_ : 0 < S_.numel
  hrank0 : 0 < grid0.rank
  k0_t1_ok : k0_t1_loop.OK
  k0_off1_inb : ∀ k0_t1 : Fin k0_t1_loop.trips, ∀ a, (k0_off1 k0_t1) a + S1x3x512x512.size a ≤ S2x3x512x512.size a
  k0_off2_inb : ∀ k0_t1 : Fin k0_t1_loop.trips, ∀ a, (k0_off2 k0_t1) a + S1x3x1x1.size a ≤ S2x6x1x1.size a
  k0_off3_inb : ∀ k0_t1 : Fin k0_t1_loop.trips, ∀ a, (k0_off3 k0_t1) a + S1x3x1x1.size a ≤ S2x6x1x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x512x512.size a ≤ S16x3x512x512.size a
  hwx0_0 : ∀ i : grid0.Coords, EltTy.bits .f32 = 32 ∨ (Rect.block (s := S16x3x512x512) S2x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x3x512x512.size a ≤ S16x3x512x512.size a
  hwx0_1 : ∀ i : grid0.Coords, EltTy.bits .f32 = 32 ∨ (Rect.block (s := S16x3x512x512) S2x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x6x1x1.size a ≤ S16x6x1x1.size a
  hwx0_2 : ∀ i : grid0.Coords, EltTy.bits .f32 = 32 ∨ (Rect.block (s := S16x6x1x1) S2x6x1x1.size (cc0_transform_2 i) (hinb0_2 i)).WholeWords (EltTy.packing .f32)

variable [Facts₀]

abbrev win0_0 : Pipeline.Window sig grid0 :=
  Pipeline.Window.ofSpec (Memref.whole main_arg0) S2x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x6x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S3 : Shape := ⟨1, ![3]⟩
abbrev S_ : Shape := ⟨0, ![]⟩
abbrev S16x3x512 : Shape := ⟨3, ![16, 3, 512]⟩
abbrev S16x3x512x1 : Shape := ⟨4, ![16, 3, 512, 1]⟩
abbrev S16x3 : Shape := ⟨2, ![16, 3]⟩
abbrev S16x3x1x512 : Shape := ⟨4, ![16, 3, 1, 512]⟩
abbrev S1x3 : Shape := ⟨2, ![1, 3]⟩

abbrev nBuf : Space → Nat
  | .hbm => 72
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S3, .f32⟩
  | .hbm, ⟨3, _⟩ => ⟨S16x3x512x512, .f32⟩
  | .hbm, ⟨4, _⟩ => ⟨S_, .f32⟩
  | .hbm, ⟨5, _⟩ => ⟨S16x3x512, .f32⟩
  | .hbm, ⟨6, _⟩ => ⟨S16x3x512x1, .f32⟩
  | .hbm, ⟨7, _⟩ => ⟨S16x3x512x1, .f32⟩
  | .hbm, ⟨8, _⟩ => ⟨S_, .f32⟩
  | .hbm, ⟨9, _⟩ => ⟨S16x3x512x1, .f32⟩
  | .hbm, ⟨10, _⟩ => ⟨S16x3x512x1, .f32⟩
  | .hbm, ⟨11, _⟩ => ⟨S16x3x512x512, .f32⟩
  | .hbm, ⟨12, _⟩ => ⟨S16x3x512x512, .f32⟩
  | .hbm, ⟨13, _⟩ => ⟨S16x3x512x512, .f32⟩
  | .hbm, ⟨14, _⟩ => ⟨S_, .f32⟩
  | .hbm, ⟨15, _⟩ => ⟨S16x3x512, .f32⟩
  | .hbm, ⟨16, _⟩ => ⟨S16x3x512x1, .f32⟩
  | .hbm, ⟨17, _⟩ => ⟨S16x3x512x1, .f32⟩
  | .hbm, ⟨18, _⟩ => ⟨S_, .f32⟩
  | .hbm, ⟨19, _⟩ => ⟨S16x3x512x1, .f32⟩
  | .hbm, ⟨20, _⟩ => ⟨S16x3x512x1, .f32⟩
  | .hbm, ⟨21, _⟩ => ⟨S16x3x512x512, .f32⟩
  | .hbm, ⟨22, _⟩ => ⟨S16x3x512x512, .f32⟩
  | .hbm, ⟨23, _⟩ => ⟨S16x3x512x512, .f32⟩
  | .hbm, ⟨24, _⟩ => ⟨S_, .f32⟩
  | .hbm, ⟨25, _⟩ => ⟨S16x3, .f32⟩
  | .hbm, ⟨26, _⟩ => ⟨S_, .f32⟩
  | .hbm, ⟨27, _⟩ => ⟨S16x3, .f32⟩
  | .hbm, ⟨28, _⟩ => ⟨S16x3, .f32⟩
  | .hbm, ⟨29, _⟩ => ⟨S16x3x512x512, .f32⟩
  | .hbm, ⟨30, _⟩ => ⟨S_, .f32⟩
  | .hbm, ⟨31, _⟩ => ⟨S16x3x512, .f32⟩
  | .hbm, ⟨32, _⟩ => ⟨S16x3x1x512, .f32⟩
  | .hbm, ⟨33, _⟩ => ⟨S16x3x1x512, .f32⟩
  | .hbm, ⟨34, _⟩ => ⟨S_, .f32⟩
  | .hbm, ⟨35, _⟩ => ⟨S16x3x1x512, .f32⟩
  | .hbm, ⟨36, _⟩ => ⟨S16x3x1x512, .f32⟩
  | .hbm, ⟨37, _⟩ => ⟨S16x3x512x512, .f32⟩
  | .hbm, ⟨38, _⟩ => ⟨S16x3x512x512, .f32⟩
  | .hbm, ⟨39, _⟩ => ⟨S16x3x512x512, .f32⟩
  | .hbm, ⟨40, _⟩ => ⟨S_, .f32⟩
  | .hbm, ⟨41, _⟩ => ⟨S16x3x512, .f32⟩
  | .hbm, ⟨42, _⟩ => ⟨S16x3x1x512, .f32⟩
  | .hbm, ⟨43, _⟩ => ⟨S16x3x1x512, .f32⟩
  | .hbm, ⟨44, _⟩ => ⟨S_, .f32⟩
  | .hbm, ⟨45, _⟩ => ⟨S16x3x1x512, .f32⟩
  | .hbm, ⟨46, _⟩ => ⟨S16x3x1x512, .f32⟩
  | .hbm, ⟨47, _⟩ => ⟨S16x3x512x512, .f32⟩
  | .hbm, ⟨48, _⟩ => ⟨S16x3x512x512, .f32⟩
  | .hbm, ⟨49, _⟩ => ⟨S16x3x512x512, .f32⟩
  | .hbm, ⟨50, _⟩ => ⟨S_, .f32⟩
  | .hbm, ⟨51, _⟩ => ⟨S16x3, .f32⟩
  | .hbm, ⟨52, _⟩ => ⟨S_, .f32⟩
  | .hbm, ⟨53, _⟩ => ⟨S16x3, .f32⟩
  | .hbm, ⟨54, _⟩ => ⟨S16x3, .f32⟩
  | .hbm, ⟨55, _⟩ => ⟨S1x3, .f32⟩
  | .hbm, ⟨56, _⟩ => ⟨S16x3, .f32⟩
  | .hbm, ⟨57, _⟩ => ⟨S16x3, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1x3, .f32⟩
  | .hbm, ⟨64, _⟩ => ⟨S16x3, .f32⟩
  | .hbm, ⟨65, _⟩ => ⟨S16x3, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_v50 : Ref sig .tc := ⟨.hbm, 68, rfl⟩
abbrev main_cst_15 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  reducesTo_S16x3x512x512_S16x3x512_d3 : S16x3x512x512.ReducesTo [3] S16x3x512
  h_S_ : 0 < S_.numel
  bcast_S16x3x512_S16x3x512x1_0_1_2 : S16x3x512.BroadcastsInDim S16x3x512x1 (![0, 1, 2] : Fin 3 → Fin S16x3x512x1.rank)
  bcast_S_S16x3x512x1 : S_.BroadcastsInDim S16x3x512x1 (![] : Fin 0 → Fin S16x3x512x1.rank)
  bcast_S16x3x512x1_S16x3x512x512_0_1_2_3 : S16x3x512x1.BroadcastsInDim S16x3x512x512 (![0, 1, 2, 3] : Fin 4 → Fin S16x3x512x512.rank)
  reducesTo_S16x3x512x512_S16x3_d2_3 : S16x3x512x512.ReducesTo [2, 3] S16x3
  bcast_S_S16x3 : S_.BroadcastsInDim S16x3 (![] : Fin 0 → Fin S16x3.rank)
  reducesTo_S16x3x512x512_S16x3x512_d2 : S16x3x512x512.ReducesTo [2] S16x3x512
  bcast_S16x3x512_S16x3x1x512_0_1_3 : S16x3x512.BroadcastsInDim S16x3x1x512 (![0, 1, 3] : Fin 3 → Fin S16x3x1x512.rank)
  bcast_S_S16x3x1x512 : S_.BroadcastsInDim S16x3x1x512 (![] : Fin 0 → Fin S16x3x1x512.rank)
  bcast_S16x3x1x512_S16x3x512x512_0_1_2_3 : S16x3x1x512.BroadcastsInDim S16x3x512x512 (![0, 1, 2, 3] : Fin 4 → Fin S16x3x512x512.rank)
  bcast_S3_S1x3_1 : S3.BroadcastsInDim S1x3 (![1] : Fin 1 → Fin S1x3.rank)
  bcast_S1x3_S16x3_0_1 : S1x3.BroadcastsInDim S16x3 (![0, 1] : Fin 2 → Fin S16x3.rank)
  reducesTo_S16x3_S_d0_1 : S16x3.ReducesTo [0, 1] S_

variable [Facts₀]

class Facts : Prop extends Facts₀ where

variable [Facts]
-- ==== Proof.TraceSpec.lean ====
/-
  The normalized trace of two matrices, in the two arrangements the programs compute it in.

  For matrices `X`, `R` indexed by `ι × κ`, write `‖X a‖ = √(∑ b, X a b ²)` for the norm of row `a`, clamped
  below by a small positive constant `ε`. One arrangement first takes the row's inner product and divides it
  by the product of the two clamped norms, then sums over the rows and multiplies by `2⁻⁹`:

      rowK X R = (∑ a, (∑ b, X a b · R a b) / (max ‖X a‖ ε · max ‖R a‖ ε)) · 2⁻⁹.

  The other normalizes every entry first, sums all the products of normalized entries, and divides by `512`:

      rowR X R = (0 + ∑ a, ∑ b, (X a b / max ‖X a‖ ε) · (R a b / max ‖R a‖ ε)) / 512.

  The column-normalized trace is the same pair of arrangements on the transposed matrices.
-/
import Idealize.ShloMosaic.PureOps.Ideal
import Idealize.ShloMosaic.PureOps.Ideal.Laws
import Idealize.ShloMosaic.Lib.ValueIdx

noncomputable section

namespace Cert.TraceSpec

open Idealize.ShloMosaic

/-- The clamp `ε` of a norm: the single-precision word nearest to `10⁻¹²`. -/
def eps : EReal := Ideal.ofBits .f32 0x2B8CBCCC#32
/-- The initial value of the host's sums: the zero word. -/
def zero32 : EReal := Ideal.ofBits .f32 0x00000000#32
/-- The scale `2⁻⁹ = 1/512`. -/
def inv512 : EReal := Ideal.ofBits .f32 0x3B000000#32
/-- The divisor `512`. -/
def c512 : EReal := Ideal.ofBits .f32 0x44000000#32

variable {ι κ : Type} [Fintype ι] [Fintype κ]

/-- Row inner products divided by the product of the clamped row norms, summed over the rows, times `2⁻⁹`. -/
def rowK (X R : ι → κ → EReal) : EReal :=
  (∑ a, Ideal.div (∑ b, X a b * R a b)
      (max (Ideal.sqrt (∑ b, X a b * X a b)) eps * max (Ideal.sqrt (∑ b, R a b * R a b)) eps)) * inv512

/-- Every entry divided by its clamped row norm, the products of the normalized entries summed, divided by `512`. -/
def rowR (X R : ι → κ → EReal) : EReal :=
  Ideal.div (zero32 + ∑ a, ∑ b,
      Ideal.div (X a b) (max (Ideal.sqrt (zero32 + ∑ k, X a k * X a k)) eps)
        * Ideal.div (R a b) (max (Ideal.sqrt (zero32 + ∑ k, R a k * R a k)) eps)) c512

/-- The same with every entry divided by its clamped COLUMN norm (the sum still taken rows first). -/
def colR (X R : ι → κ → EReal) : EReal :=
  Ideal.div (zero32 + ∑ a, ∑ b,
      Ideal.div (X a b) (max (Ideal.sqrt (zero32 + ∑ k, X k b * X k b)) eps)
        * Ideal.div (R a b) (max (Ideal.sqrt (zero32 + ∑ k, R k b * R k b)) eps)) c512

/-- Normalizing by columns is normalizing the transposed matrices by rows: the double sum taken in the other order. -/
theorem colR_eq_rowR_transpose (X R : ι → κ → EReal) :
    colR X R = rowR (fun b a => X a b) (fun b a => R a b) := by
  unfold colR rowR
  rw [Finset.sum_comm]

end Cert.TraceSpec

end
-- ==== Proof.TraceLaw.lean ====
/-
  The two arrangements of the normalized trace agree on matrices of real numbers.

  When every entry is a real number, every quantity in either arrangement is a real number: a finite sum
  of products of reals is real; a sum of squares is nonnegative, so its root is the real square root; the
  clamp `ε` is a positive real, so each clamped norm `A a = max ‖X a‖ ε`, `B a = max ‖R a‖ ε` is a
  positive real, and division by it is multiplication by its real reciprocal. What is left is the identity

      (∑ a, (∑ b, x a b · r a b) / (A a · B a)) · (1/512) = (∑ a, ∑ b, (x a b / A a) · (r a b / B a)) / 512

  of real numbers, which holds row by row, the common factor `1 / (A a · B a)` taken out of the inner sum.
-/
import proofs.«174782_j4131758539314_2_alg».proof.Proof.TraceSpec
import Mathlib.Tactic

noncomputable section

namespace Cert.TraceSpec

open Idealize.ShloMosaic

/-! ### The constants as real numbers -/

/-- The zero word denotes `0`. -/
theorem zero32_eq : zero32 = 0 := Ideal.ofBits_zero_f32

/-- The word `0x44000000` (exponent field `136`, fraction `0`) denotes `2²³ · 2^(136 - 127 - 23) = 512`. -/
theorem c512_eq : c512 = ((512 : ℝ) : EReal) := by
  unfold c512
  simp [Ideal.ofBits, Ideal.ieee, -EReal.coe_mul]; norm_num

/-- The word `0x3B000000` (exponent field `118`, fraction `0`) denotes `2²³ · 2^(118 - 127 - 23) = 1/512`. -/
theorem inv512_eq : inv512 = ((1 / 512 : ℝ) : EReal) := by
  unfold inv512
  simp [Ideal.ofBits, Ideal.ieee, -EReal.coe_mul]; norm_num

/-- The word `0x2B8CBCCC` (exponent field `87`, fraction `834764`) denotes
    `(2²³ + 834764) · 2^(87 - 127 - 23) = 9223372 · 2⁻⁶³`. -/
theorem eps_eq : eps = (((9223372 : ℝ) * (2 : ℝ) ^ (-63 : ℤ) : ℝ) : EReal) := by
  unfold eps
  simp [Ideal.ofBits, Ideal.ieee, -EReal.coe_mul]

/-- The clamp `ε` is a positive real number. -/
theorem eps_pos : ∃ e : ℝ, 0 < e ∧ eps = (e : EReal) :=
  ⟨(9223372 : ℝ) * (2 : ℝ) ^ (-63 : ℤ), by positivity, eps_eq⟩

/-! ### Real quantities stay real -/

/-- A finite sum of real numbers, taken in the extended reals, is the real sum. -/
theorem coe_sum {α : Type} (s : Finset α) (f : α → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the real maximum. -/
theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The square root of a nonnegative real number is its real square root. -/
theorem sqrt_coe_of_nonneg {r : ℝ} (h : 0 ≤ r) : Ideal.sqrt (r : EReal) = (Real.sqrt r : EReal) := by
  rw [Ideal.sqrt_coe, if_neg (not_lt.2 h)]

/-- The clamped norm of a real row is a real number: the root of the sum of squares, which is
    nonnegative, clamped below by the real `e`. -/
theorem clamp_coe {κ : Type} [Fintype κ] (f : κ → ℝ) (e : ℝ) :
    max (Ideal.sqrt (∑ b, (f b : EReal) * (f b : EReal))) (e : EReal)
      = ((max (Real.sqrt (∑ b, f b * f b)) e : ℝ) : EReal) := by
  have h0 : 0 ≤ ∑ b, f b * f b := Finset.sum_nonneg fun b _ => mul_self_nonneg (f b)
  simp only [← EReal.coe_mul]
  rw [coe_sum, sqrt_coe_of_nonneg h0, coe_max]

/-! ### The two arrangements agree -/

/-- On matrices of real numbers the two arrangements of the normalized trace are the same extended real:
    both are the real number `(∑ a, (∑ b, x a b · r a b) / (A a · B a)) / 512`, with `A a`, `B a` the
    positive clamped row norms. -/
theorem rowK_eq_rowR {ι κ : Type} [Fintype ι] [Fintype κ] (X R : ι → κ → EReal)
    (hX : ∀ a b, ∃ r : ℝ, X a b = (r : EReal)) (hR : ∀ a b, ∃ r : ℝ, R a b = (r : EReal)) :
    rowK X R = rowR X R := by
  choose xr hxr using hX
  choose rr hrr using hR
  obtain rfl : X = fun a b => (xr a b : EReal) := by funext a b; exact hxr a b
  obtain rfl : R = fun a b => (rr a b : EReal) := by funext a b; exact hrr a b
  obtain ⟨e, he, heps⟩ := eps_pos
  -- the clamped norms are positive, hence nonzero
  have hA : ∀ a, max (Real.sqrt (∑ b, xr a b * xr a b)) e ≠ 0 := fun a => (lt_max_of_lt_right he).ne'
  have hB : ∀ a, max (Real.sqrt (∑ b, rr a b * rr a b)) e ≠ 0 := fun a => (lt_max_of_lt_right he).ne'
  -- so division by a clamped norm, or by a product of two, is multiplication by the real reciprocal
  have dA : ∀ a (x : EReal), Ideal.div x ((max (Real.sqrt (∑ b, xr a b * xr a b)) e : ℝ) : EReal)
      = x * ((1 / max (Real.sqrt (∑ b, xr a b * xr a b)) e : ℝ) : EReal) :=
    fun a x => Ideal.div_coe (hA a) x
  have dB : ∀ a (x : EReal), Ideal.div x ((max (Real.sqrt (∑ b, rr a b * rr a b)) e : ℝ) : EReal)
      = x * ((1 / max (Real.sqrt (∑ b, rr a b * rr a b)) e : ℝ) : EReal) :=
    fun a x => Ideal.div_coe (hB a) x
  have dAB : ∀ a (x : EReal), Ideal.div x
      ((max (Real.sqrt (∑ b, xr a b * xr a b)) e * max (Real.sqrt (∑ b, rr a b * rr a b)) e : ℝ) : EReal)
      = x * ((1 / (max (Real.sqrt (∑ b, xr a b * xr a b)) e
          * max (Real.sqrt (∑ b, rr a b * rr a b)) e) : ℝ) : EReal) :=
    fun a x => Ideal.div_coe (mul_ne_zero (hA a) (hB a)) x
  have d512 : ∀ x : EReal, Ideal.div x ((512 : ℝ) : EReal) = x * ((1 / 512 : ℝ) : EReal) :=
    fun x => Ideal.div_coe (by norm_num) x
  unfold rowK rowR
  rw [zero32_eq, inv512_eq, c512_eq, heps]
  simp only [zero_add, clamp_coe, d512]
  simp only [← EReal.coe_mul, dA, dB, dAB, coe_sum]
  -- both sides are now real numbers; they agree row by row
  congr 2
  refine Finset.sum_congr rfl fun a _ => ?_
  rw [Finset.sum_mul]
  refine Finset.sum_congr rfl fun b _ => ?_
  ring

end Cert.TraceSpec

end
-- ==== Proof.RefTrace.lean ====
/-
  The reference program's two normalized traces, read at an index.

  For inputs `x0 x1 : [16, 3, 512, 512]` and each pair `(b, c)` the reference program divides every entry of the
  `512 × 512` matrices `x0[b, c]` and `x1[b, c]` by the clamped norm of its row (or, in the second half of the
  program, of its column), multiplies the normalized entries, sums the `512 · 512` products from the zero word
  and divides by `512`. This module reads these two results entry by entry and identifies them with
  `rowR` and `colR` of the two matrices.

  The one step that is not a chain of entrywise readings is the sum over the two axes `[2, 3]` into `[16, 3]`:
  the indices of `[16, 3, 512, 512]` that drop to `(b, c)` are exactly the `(b, c, h, w)`, so their sum is the
  double sum over `h` and `w`.
-/
import proofs.«174782_j4131758539314_2_alg».proof.Proof.Gen.ReferenceIdeal.Read
import proofs.«174782_j4131758539314_2_alg».proof.Proof.TraceSpec
import Idealize.ShloMosaic.Lib.ValueIdx
import Idealize.ShloMosaic.PureOps.Ideal.Laws
import Idealize.ShloMosaic.PureOps.Reduce

noncomputable section

namespace Cert.RefTrace

open Idealize.ShloMosaic Idealize.ShloMosaic.ValueIdx Cert.ReferenceIdeal Cert.ReferenceIdeal.Gen Cert.ReferenceIdeal.Read Cert.TraceSpec

/-! ## The sum over the two matrix axes -/

/-- The first two coordinates of an index of `[16, 3, 512, 512]` survive the drop of axes `2` and `3`. -/
theorem drop_d2_3_val0 (hr : S16x3x512x512.ReducesTo [2, 3] S16x3) (i : S16x3x512x512.Idx) :
    (hr.drop i 0).val = (i 0).val := hr.drop_apply_val_of_eq i 0 0

theorem drop_d2_3_val1 (hr : S16x3x512x512.ReducesTo [2, 3] S16x3) (i : S16x3x512x512.Idx) :
    (hr.drop i 1).val = (i 1).val := hr.drop_apply_val_of_eq i 1 1

/-- The index `(b, c, h, w)` drops to `(b, c)`. -/
theorem drop_d2_3_ix4 (hr : S16x3x512x512.ReducesTo [2, 3] S16x3) (b : Fin 16) (c : Fin 3) (h w : Fin 512) :
    hr.drop (ix4 b c h w) = ix2 b c := by
  funext a
  apply Fin.ext
  match a with
  | ⟨0, _⟩ => exact drop_d2_3_val0 hr _
  | ⟨1, _⟩ => exact drop_d2_3_val1 hr _

/-- An index that drops to `(b, c)` is `(b, c, h, w)` at its own last two coordinates. -/
theorem eq_ix4_of_drop_d2_3 (hr : S16x3x512x512.ReducesTo [2, 3] S16x3) (b : Fin 16) (c : Fin 3)
    (i : S16x3x512x512.Idx) (hi : hr.drop i = ix2 b c) : ix4 b c (i 2) (i 3) = i := by
  have h0 : (i 0).val = b.val := by
    rw [← drop_d2_3_val0 hr i, hi]
  have h1 : (i 1).val = c.val := by
    rw [← drop_d2_3_val1 hr i, hi]
  funext a
  apply Fin.ext
  match a with
  | ⟨0, _⟩ => exact h0.symm
  | ⟨1, _⟩ => exact h1.symm
  | ⟨2, _⟩ => rfl
  | ⟨3, _⟩ => rfl

/-- The host's float sum over the axes `[2, 3]` of `[16, 3, 512, 512]`, read at `(b, c)`: the initial value plus
    the double sum over the two matrix axes. -/
theorem hostReduceAdd_d2_3 (hr : S16x3x512x512.ReducesTo [2, 3] S16x3) (y : S16x3x512x512.Idx → EReal) (init : EReal)
    (b : Fin 16) (c : Fin 3) :
    Ideal.hostReduceAdd hr y init (ix2 b c) = init + ∑ h : Fin 512, ∑ w : Fin 512, y (ix4 b c h w) := by
  unfold Ideal.hostReduceAdd
  refine congrArg (init + ·) ?_
  rw [← Finset.sum_product']
  refine Finset.sum_nbij' (fun i => ((i 2 : Fin 512), (i 3 : Fin 512))) (fun p => ix4 b c p.1 p.2) ?_ ?_ ?_ ?_ ?_
  · intro i _; exact Finset.mem_product.2 ⟨Finset.mem_univ _, Finset.mem_univ _⟩
  · intro p _; exact Finset.mem_filter.2 ⟨Finset.mem_univ _, drop_d2_3_ix4 hr b c p.1 p.2⟩
  · intro i hi; exact eq_ix4_of_drop_d2_3 hr b c i (Finset.mem_filter.1 hi).2
  · intro p _; rfl
  · intro i hi; exact congrArg y (eq_ix4_of_drop_d2_3 hr b c i (Finset.mem_filter.1 hi).2).symm

/-! ## The row-normalized trace -/

/-- The index at which the row norm of `x0` that entry `(b, c, h, w)` is divided by reads its `k`-th square. -/
theorem idx_row0 (b : Fin 16) (c : Fin 3) (h w k : Fin 512) :
    idx_main_v1 (idx_main_v2 (idx_main_v6 (ix4 b c h w))) k = ix4 b c h k := by
  funext a
  match a with
  | ⟨0, _⟩ => rfl
  | ⟨1, _⟩ => rfl
  | ⟨2, _⟩ => rfl
  | ⟨3, _⟩ => rfl

/-- The same for `x1`. -/
theorem idx_row1 (b : Fin 16) (c : Fin 3) (h w k : Fin 512) :
    idx_main_v9 (idx_main_v10 (idx_main_v14 (ix4 b c h w))) k = ix4 b c h k := by
  funext a
  match a with
  | ⟨0, _⟩ => rfl
  | ⟨1, _⟩ => rfl
  | ⟨2, _⟩ => rfl
  | ⟨3, _⟩ => rfl

/-- Entry `(b, c, h, w)` of `x0` divided by the clamped norm of its row. -/
theorem v7_row (x0 : (⟨S16x3x512x512, .f32⟩ : BufTy).Contents (Elt Ideal)) (b : Fin 16) (c : Fin 3) (h w : Fin 512) :
    val_main_v7 (F := Ideal) x0 (ix4 b c h w)
      = Ideal.div (x0 (ix4 b c h w))
          (max (Ideal.sqrt (zero32 + ∑ k : Fin 512, x0 (ix4 b c h k) * x0 (ix4 b c h k))) eps) := by
  rw [val_main_v7_apply, val_main_v6_apply, val_main_v5_apply, val_main_v3_apply, val_main_v2_apply,
    val_main_v1_apply, val_main_v4_apply, val_main_cst_1_apply, val_main_cst_0_apply]
  simp only [val_main_v0_apply, idx_row0, Ideal.mulf_def, Ideal.hostDivf_def, Ideal.hostUnary_sqrt_def,
    Ideal.maximumf_def, Ideal.ofBits_def]
  rfl

/-- Entry `(b, c, h, w)` of `x1` divided by the clamped norm of its row. -/
theorem v15_row (x1 : (⟨S16x3x512x512, .f32⟩ : BufTy).Contents (Elt Ideal)) (b : Fin 16) (c : Fin 3) (h w : Fin 512) :
    val_main_v15 (F := Ideal) x1 (ix4 b c h w)
      = Ideal.div (x1 (ix4 b c h w))
          (max (Ideal.sqrt (zero32 + ∑ k : Fin 512, x1 (ix4 b c h k) * x1 (ix4 b c h k))) eps) := by
  rw [val_main_v15_apply, val_main_v14_apply, val_main_v13_apply, val_main_v11_apply, val_main_v10_apply,
    val_main_v9_apply, val_main_v12_apply, val_main_cst_3_apply, val_main_cst_2_apply]
  simp only [val_main_v8_apply, idx_row1, Ideal.mulf_def, Ideal.hostDivf_def, Ideal.hostUnary_sqrt_def,
    Ideal.maximumf_def, Ideal.ofBits_def]
  rfl

/-- The reference's first result at `(b, c)` is the row-normalized trace of the matrices `x0[b, c]`, `x1[b, c]`. -/
theorem ref_row (x0 x1 : (⟨S16x3x512x512, .f32⟩ : BufTy).Contents (Elt Ideal)) (b : Fin 16) (c : Fin 3) :
    val_main_v19 (F := Ideal) x0 x1 (ix2 b c)
      = rowR (fun (h w : Fin 512) => x0 (ix4 b c h w)) (fun (h w : Fin 512) => x1 (ix4 b c h w)) := by
  rw [val_main_v19_apply, val_main_v18_apply, val_main_cst_5_apply]
  unfold val_main_v17
  simp only [Host.reduceAdd, Ideal.hostReduceAdd_def]
  rw [hostReduceAdd_d2_3, val_main_cst_4_apply]
  simp only [val_main_v16_apply, v7_row, v15_row, Ideal.mulf_def, Ideal.hostDivf_def, Ideal.ofBits_def]
  rfl

/-! ## The column-normalized trace -/

/-- The index at which the column norm of `x0` that entry `(b, c, h, w)` is divided by reads its `k`-th square. -/
theorem idx_col0 (b : Fin 16) (c : Fin 3) (h w k : Fin 512) :
    idx_main_v21 (idx_main_v22 (idx_main_v26 (ix4 b c h w))) k = ix4 b c k w := by
  funext a
  match a with
  | ⟨0, _⟩ => rfl
  | ⟨1, _⟩ => rfl
  | ⟨2, _⟩ => rfl
  | ⟨3, _⟩ => rfl

/-- The same for `x1`. -/
theorem idx_col1 (b : Fin 16) (c : Fin 3) (h w k : Fin 512) :
    idx_main_v29 (idx_main_v30 (idx_main_v34 (ix4 b c h w))) k = ix4 b c k w := by
  funext a
  match a with
  | ⟨0, _⟩ => rfl
  | ⟨1, _⟩ => rfl
  | ⟨2, _⟩ => rfl
  | ⟨3, _⟩ => rfl

/-- Entry `(b, c, h, w)` of `x0` divided by the clamped norm of its column. -/
theorem v27_col (x0 : (⟨S16x3x512x512, .f32⟩ : BufTy).Contents (Elt Ideal)) (b : Fin 16) (c : Fin 3) (h w : Fin 512) :
    val_main_v27 (F := Ideal) x0 (ix4 b c h w)
      = Ideal.div (x0 (ix4 b c h w))
          (max (Ideal.sqrt (zero32 + ∑ k : Fin 512, x0 (ix4 b c k w) * x0 (ix4 b c k w))) eps) := by
  rw [val_main_v27_apply, val_main_v26_apply, val_main_v25_apply, val_main_v23_apply, val_main_v22_apply,
    val_main_v21_apply, val_main_v24_apply, val_main_cst_7_apply, val_main_cst_6_apply]
  simp only [val_main_v20_apply, idx_col0, Ideal.mulf_def, Ideal.hostDivf_def, Ideal.hostUnary_sqrt_def,
    Ideal.maximumf_def, Ideal.ofBits_def]
  rfl

/-- Entry `(b, c, h, w)` of `x1` divided by the clamped norm of its column. -/
theorem v35_col (x1 : (⟨S16x3x512x512, .f32⟩ : BufTy).Contents (Elt Ideal)) (b : Fin 16) (c : Fin 3) (h w : Fin 512) :
    val_main_v35 (F := Ideal) x1 (ix4 b c h w)
      = Ideal.div (x1 (ix4 b c h w))
          (max (Ideal.sqrt (zero32 + ∑ k : Fin 512, x1 (ix4 b c k w) * x1 (ix4 b c k w))) eps) := by
  rw [val_main_v35_apply, val_main_v34_apply, val_main_v33_apply, val_main_v31_apply, val_main_v30_apply,
    val_main_v29_apply, val_main_v32_apply, val_main_cst_9_apply, val_main_cst_8_apply]
  simp only [val_main_v28_apply, idx_col1, Ideal.mulf_def, Ideal.hostDivf_def, Ideal.hostUnary_sqrt_def,
    Ideal.maximumf_def, Ideal.ofBits_def]
  rfl

/-- The reference's second result at `(b, c)` is the column-normalized trace of the matrices `x0[b, c]`, `x1[b, c]`. -/
theorem ref_col (x0 x1 : (⟨S16x3x512x512, .f32⟩ : BufTy).Contents (Elt Ideal)) (b : Fin 16) (c : Fin 3) :
    val_main_v39 (F := Ideal) x0 x1 (ix2 b c)
      = colR (fun (h w : Fin 512) => x0 (ix4 b c h w)) (fun (h w : Fin 512) => x1 (ix4 b c h w)) := by
  rw [val_main_v39_apply, val_main_v38_apply, val_main_cst_11_apply]
  unfold val_main_v37
  simp only [Host.reduceAdd, Ideal.hostReduceAdd_def]
  rw [hostReduceAdd_d2_3, val_main_cst_10_apply]
  simp only [val_main_v36_apply, v27_col, v35_col, Ideal.mulf_def, Ideal.hostDivf_def, Ideal.ofBits_def]
  rfl

end Cert.RefTrace

end
-- ==== Proof.HostTail.lean ====
/-
  The last operations of the program, and two readings of a packed result.

  Both programs finish the same way on two `[16, 3]` arrays `A` and `B`: each is multiplied entrywise by the
  weights (the constant `1` of shape `[3]`, broadcast to `[1, 3]` and then to `[16, 3]`), summed over both axes
  from the zero word, negated and divided by `16`; the two scalars are added. `tail A B` is that scalar, written
  once, and the reference program's result is `tail` of its two normalized traces (by unfolding definitions only:
  the arithmetic of the tail is never opened).

  The second part reads a `[16, 6, 1, 1]` array cast to `[16, 6]` and cut along its columns into the halves
  `[0, 3)` and `[3, 6)`: entry `(b, c)` of the low half is the array at `(b, c, 0, 0)`, of the high half at
  `(b, c + 3, 0, 0)`.
-/
import proofs.«174782_j4131758539314_2_alg».proof.Proof.Gen.ReferenceIdeal.Read
import Idealize.ShloMosaic.Lib.ValueIdx
import Idealize.ShloMosaic.Lib.ValueLayout
import Idealize.ShloMosaic.Lib.Pipeline.Value

noncomputable section

namespace Cert.HostTail

open Idealize.ShloMosaic Idealize.ShloMosaic.ValueIdx Cert.ReferenceIdeal Cert.ReferenceIdeal.Gen Cert.ReferenceIdeal.Read

/-! ## The common tail -/

/-- The weighted sums of `A` and of `B` over both axes, each negated and divided by `16`, added. -/
def tail (A B : (⟨S16x3, .f32⟩ : BufTy).Contents (Elt Ideal)) : (⟨S_, .f32⟩ : BufTy).Contents (Elt Ideal) :=
  addf (F := Ideal)
    (Host.divf (F := Ideal)
      (Host.negf (F := Ideal)
        (Host.reduceAdd (F := Ideal)
          (mulf (F := Ideal) A
            (broadcastInDim S16x3 ![0, 1] bcast_S1x3_S16x3_0_1
              (broadcastInDim S1x3 ![1] bcast_S3_S1x3_1 (constant (F := Ideal) S3 .f32 0x3F800000#32))))
          (constant (F := Ideal) S_ .f32 0x00000000#32) reducesTo_S16x3_S_d0_1 h_S_))
      (constant (F := Ideal) S_ .f32 0x41800000#32))
    (Host.divf (F := Ideal)
      (Host.negf (F := Ideal)
        (Host.reduceAdd (F := Ideal)
          (mulf (F := Ideal) B
            (broadcastInDim S16x3 ![0, 1] bcast_S1x3_S16x3_0_1
              (broadcastInDim S1x3 ![1] bcast_S3_S1x3_1 (constant (F := Ideal) S3 .f32 0x3F800000#32))))
          (constant (F := Ideal) S_ .f32 0x00000000#32) reducesTo_S16x3_S_d0_1 h_S_))
      (constant (F := Ideal) S_ .f32 0x41800000#32))

/-- The reference program's result is the tail of its two normalized traces. -/
theorem ref_tail (x0 x1 : (⟨S16x3x512x512, .f32⟩ : BufTy).Contents (Elt Ideal)) :
    val_main_v52 (F := Ideal) x0 x1 = tail (val_main_v19 (F := Ideal) x0 x1) (val_main_v39 (F := Ideal) x0 x1) := rfl

/-! ## The two halves of a packed `[16, 6, 1, 1]` result -/

section Layout
variable {α : Type}

/-- A `[16, 6, 1, 1]` array cast to `[16, 6]` reads, at `(b, d)`, the array at `(b, d, 0, 0)`: the two indices have the
    same row-major position `6 b + d`. -/
theorem cast_apply (OUT : (⟨4, ![16, 6, 1, 1]⟩ : Shape).Idx → α)
    (hc : (⟨4, ![16, 6, 1, 1]⟩ : Shape).ShapeCasts ⟨2, ![16, 6]⟩) (b : Fin 16) (d : Fin 6) :
    shapeCast ⟨2, ![16, 6]⟩ OUT hc (ix2 b d) = OUT (ix4 b d (0 : Fin 1) (0 : Fin 1)) :=
  shapeCast_apply OUT hc _ _ (by
    rw [Shape.rowMajor_val_four, Shape.rowMajor_val_two]
    show ((b.val * 6 + d.val) * 1 + 0) * 1 + 0 = b.val * 6 + d.val
    omega)

/-- The low half, columns `[0, 3)`: entry `(b, c)` is the array at `(b, c, 0, 0)`. -/
theorem slice_lo_apply (OUT : (⟨4, ![16, 6, 1, 1]⟩ : Shape).Idx → α)
    (hc : (⟨4, ![16, 6, 1, 1]⟩ : Shape).ShapeCasts ⟨2, ![16, 6]⟩)
    (hs0 : (⟨2, ![16, 6]⟩ : Shape).Slices ![0, 0] ⟨2, ![16, 3]⟩) (b : Fin 16) (c : Fin 3) :
    extractStridedSlice ⟨2, ![16, 3]⟩ ![0, 0] (shapeCast ⟨2, ![16, 6]⟩ OUT hc) hs0 (ix2 b c)
      = OUT (ix4 b (⟨c.val, by omega⟩ : Fin 6) (0 : Fin 1) (0 : Fin 1)) :=
  (slice2_axis1_apply 0 (shapeCast ⟨2, ![16, 6]⟩ OUT hc) hs0 b c ⟨c.val, by omega⟩ (Nat.zero_add _).symm).trans
    (cast_apply OUT hc b _)

/-- The high half, columns `[3, 6)`: entry `(b, c)` is the array at `(b, c + 3, 0, 0)`. -/
theorem slice_hi_apply (OUT : (⟨4, ![16, 6, 1, 1]⟩ : Shape).Idx → α)
    (hc : (⟨4, ![16, 6, 1, 1]⟩ : Shape).ShapeCasts ⟨2, ![16, 6]⟩)
    (hs3 : (⟨2, ![16, 6]⟩ : Shape).Slices ![0, 3] ⟨2, ![16, 3]⟩) (b : Fin 16) (c : Fin 3) :
    extractStridedSlice ⟨2, ![16, 3]⟩ ![0, 3] (shapeCast ⟨2, ![16, 6]⟩ OUT hc) hs3 (ix2 b c)
      = OUT (ix4 b (⟨c.val + 3, by omega⟩ : Fin 6) (0 : Fin 1) (0 : Fin 1)) :=
  (slice2_axis1_apply 3 (shapeCast ⟨2, ![16, 6]⟩ OUT hc) hs3 b c ⟨c.val + 3, by omega⟩ (Nat.add_comm _ _)).trans
    (cast_apply OUT hc b _)

end Layout

end Cert.HostTail

end
-- ==== Proof.FiniteInputs.lean ====
/-
  The precondition read back: both argument arrays hold real numbers.

  The precondition says, of each of the two arrays, that every entry's absolute value is below `+∞`, the
  two statements joined by `and`; an `all` is a reduction by `and` of the one-bit comparisons over every axis,
  started at `1`. If the joined bit is `1` then each reduction is `1`, and then every comparison it folds is
  `1`. At the extended reals the absolute value of `v` is `max v (-v)`, which is `⊤` at `v = ⊥` and at
  `v = ⊤`; so `max v (-v) < ⊤` leaves only the case that `v` is a real number.
-/
import proofs.«174782_j4131758539314_2_alg».proof.Defs
import proofs.«174782_j4131758539314_2_alg».proof.Proof.Gen.Pre_finite_inputs
import proofs.«174782_j4131758539314_2_alg».proof.Proof.Gen.KernelIdeal
import Idealize.ShloMosaic.Lib.ReduceAll
import Idealize.ShloMosaic.Lib.ValueIdx

noncomputable section

namespace Cert.FiniteInputs

open Idealize.ShloMosaic Idealize.SL.Sem
open Cert.Pre_finite_inputs

/-- The word `0x7F800000` (sign `0`, exponent field all ones, fraction `0`) denotes `+∞`. -/
theorem ofBits_inf : Ideal.ofBits .f32 0x7F800000#32 = ⊤ := by
  simp [Ideal.ofBits, Ideal.ieee]

/-- An extended real whose absolute value `max v (-v)` compares below `+∞` is a real number: at `⊥` and
    at `⊤` the absolute value is `⊤`, which is not below itself. -/
theorem real_of_abs_lt (v : EReal)
    (h : Ideal.cmp .olt (max v (-v)) (Ideal.ofBits .f32 0x7F800000#32) = 1#1) : ∃ a : ℝ, v = (a : EReal) := by
  rw [ofBits_inf] at h
  induction v with
  | bot => simp [Ideal.cmp] at h
  | coe a => exact ⟨a, rfl⟩
  | top => simp [Ideal.cmp] at h

/-- The scalar shape has one index. -/
instance : Subsingleton S_.Idx := ⟨fun a b => funext fun d => d.elim0⟩

/-- If the precondition's bit is `1` on two arrays, every entry of either is a real number: the bit is the
    `and` of two reductions by `and`, each of which is then `1`, so each folds only `1`s, and the bit
    folded at index `i` is the comparison of the entry's absolute value with `+∞`. -/
theorem real_of_fn [Facts] (x r : FVec Ideal S16x3x512x512 .f32)
    (h : fn (F := Ideal) x r = (fun _ => 1#1)) :
    (∀ i, ∃ a : ℝ, x i = (a : EReal)) ∧ (∀ i, ∃ a : ℝ, r i = (a : EReal)) := by
  have e := congrFun h ValueIdx.ix0
  dsimp only [fn] at e
  obtain ⟨e1, e2⟩ := IntOp.andi_eq_one.1 e
  exact ⟨fun i => real_of_abs_lt (x i) (Host.reduce_andi_all _ _ _ _ _ e1 i),
    fun i => real_of_abs_lt (r i) (Host.reduce_andi_all _ _ _ _ _ e2 i)⟩

/-- Under the idealized kernel's precondition both argument arrays of every device hold real numbers. -/
theorem real_of_pre
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ a : ℝ,
        m ((c.tc : Thread Cert.KernelIdeal.nD Cert.KernelIdeal.τ).loc Cert.KernelIdeal.main_arg0) i = (a : EReal))
      ∧ (∀ i, ∃ a : ℝ,
        m ((c.tc : Thread Cert.KernelIdeal.nD Cert.KernelIdeal.τ).loc Cert.KernelIdeal.main_arg1) i = (a : EReal)) :=
  real_of_fn _ _ (hpre c)

end Cert.FiniteInputs

end
-- ==== Proof.KernelPayload.lean ====
/-
  The kernel body's arithmetic read at an index.

  One trip of the body takes two `[1, 3, 512, 512]` slabs `x`, `r` (one batch row of each input) and produces, for each
  channel `c`, two numbers: from the sums along the last axis the row-normalized trace, and from the sums along the middle
  axis the column-normalized trace, each in the arrangement "inner product over the product of the clamped norms, summed,
  times 2⁻⁹" (`TraceSpec.rowK`; for the columns on the transposed matrices). The reshapes between `[3, 512]`,
  `[3, 512, 1]`, `[3, 1, 512]`, `[3, 1]`, `[3, 1, 1]` and `[1, 3, 1, 1]` only insert or drop axes of extent one, so each
  reads its operand at the same coordinates with the unit coordinate dropped or inserted.
-/
import proofs.«174782_j4131758539314_2_alg».proof.Proof.Gen.KernelIdeal.Skeleton
import proofs.«174782_j4131758539314_2_alg».proof.Proof.TraceSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelTrace

open Idealize.ShloMosaic Idealize.ShloMosaic.ValueIdx Cert.KernelIdeal Cert.KernelIdeal.Gen Cert.TraceSpec

/-! ## Casts that insert an axis of extent one -/

/-- An `[a, b]` array cast to `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## Sums along one axis of a rank-3 array -/

/-- The sum along the LAST axis of an `[a, b, n]` array, at `(i, j)`: the sum over `k` of the entries `(i, j, k)`. -/
theorem sum_last_apply {a b n : ℕ} (v : FVec Ideal ⟨3, ![a, b, n]⟩ .f32) (acc : BitVec 32)
    (hr : (⟨3, ![a, b, n]⟩ : Shape).Reduces [2] ⟨2, ![a, b]⟩) (hφ : FKind.Formats .f32)
    (hacc : acc = FKind.add.neutral .f32 hφ) (i : Fin a) (j : Fin b) :
    multiReduction .add [2] ⟨2, ![a, b]⟩ v acc hr hφ hacc (ix2 i j) = ∑ k : Fin n, v (ix3 i j k) := by
  refine (Ideal.multiReduction_add_single v acc hr hφ hacc (ix2 i j)).trans ?_
  refine Finset.sum_congr rfl fun k _ => congrArg v (funext fun d => Fin.ext ?_)
  match d with | ⟨0, _⟩ => rfl | ⟨1, _⟩ => rfl | ⟨2, _⟩ => rfl

/-- The sum along the MIDDLE axis of an `[a, n, b]` array, at `(i, j)`: the sum over `k` of the entries `(i, k, j)`. -/
theorem sum_mid_apply {a n b : ℕ} (v : FVec Ideal ⟨3, ![a, n, b]⟩ .f32) (acc : BitVec 32)
    (hr : (⟨3, ![a, n, b]⟩ : Shape).Reduces [1] ⟨2, ![a, b]⟩) (hφ : FKind.Formats .f32)
    (hacc : acc = FKind.add.neutral .f32 hφ) (i : Fin a) (j : Fin b) :
    multiReduction .add [1] ⟨2, ![a, b]⟩ v acc hr hφ hacc (ix2 i j) = ∑ k : Fin n, v (ix3 i k j) := by
  refine (Ideal.multiReduction_add_single v acc hr hφ hacc (ix2 i j)).trans ?_
  refine Finset.sum_congr rfl fun k _ => congrArg v (funext fun d => Fin.ext ?_)
  match d with | ⟨0, _⟩ => rfl | ⟨1, _⟩ => rfl | ⟨2, _⟩ => rfl

/-! ## The slabs and their products at an index -/

/-- A `[1, 3, 512, 512]` slab viewed as `[3, 512, 512]` reads `(c, h, w)` at `(0, c, h, w)`. -/
theorem pay3_apply (v4 : Vec Ideal S1x3x512x512 .f32) (c : Fin 3) (h w : Fin 512) :
    k0_pay3 v4 (ix3 c h w) = v4 (ix4 (0 : Fin 1) c h w) :=
  shapeCast_1abc_abc_apply v4 _ c h w

theorem pay4_apply (v7 : Vec Ideal S1x3x512x512 .f32) (c : Fin 3) (h w : Fin 512) :
    k0_pay4 v7 (ix3 c h w) = v7 (ix4 (0 : Fin 1) c h w) :=
  shapeCast_1abc_abc_apply v7 _ c h w

/-- The entrywise product `x · r`. -/
theorem pay5_apply (v4 v7 : Vec Ideal S1x3x512x512 .f32) (c : Fin 3) (h w : Fin 512) :
    k0_pay5 v4 v7 (ix3 c h w) = v4 (ix4 (0 : Fin 1) c h w) * v7 (ix4 (0 : Fin 1) c h w) := by
  show k0_pay3 v4 (ix3 c h w) * k0_pay4 v7 (ix3 c h w) = _
  rw [pay3_apply, pay4_apply]

/-- The entrywise square `x · x`. -/
theorem pay7_apply (v4 : Vec Ideal S1x3x512x512 .f32) (c : Fin 3) (h w : Fin 512) :
    k0_pay7 v4 (ix3 c h w) = v4 (ix4 (0 : Fin 1) c h w) * v4 (ix4 (0 : Fin 1) c h w) := by
  show k0_pay3 v4 (ix3 c h w) * k0_pay3 v4 (ix3 c h w) = _
  rw [pay3_apply]

/-- The entrywise square `r · r`. -/
theorem pay8_apply (v7 : Vec Ideal S1x3x512x512 .f32) (c : Fin 3) (h w : Fin 512) :
    k0_pay8 v7 (ix3 c h w) = v7 (ix4 (0 : Fin 1) c h w) * v7 (ix4 (0 : Fin 1) c h w) := by
  show k0_pay4 v7 (ix3 c h w) * k0_pay4 v7 (ix3 c h w) = _
  rw [pay4_apply]

/-! ## The row-normalized trace of one channel -/

/-- Channel `c`'s first output of a trip: the row inner products of the two `512 × 512` matrices of the channel, each
    divided by the product of the clamped row norms, summed over the rows, times `2⁻⁹`. -/
theorem pay9_apply (v4 v7 : Vec Ideal S1x3x512x512 .f32) (c : Fin 3) :
    k0_pay9 v4 v7 (ix3 c (0 : Fin 1) (0 : Fin 1))
      = rowK (fun h w : Fin 512 => v4 (ix4 (0 : Fin 1) c h w)) (fun h w : Fin 512 => v7 (ix4 (0 : Fin 1) c h w)) := by
  unfold k0_pay9 rowK
  dsimp only
  refine congrArg₂ (· * ·) ?_ rfl
  refine (shapeCast_ab_ab1_apply _ _ c (0 : Fin 1) (0 : Fin 1)).trans ?_
  refine (sum_mid_apply _ _ _ _ _ c (0 : Fin 1)).trans ?_
  refine Finset.sum_congr rfl fun h _ => ?_
  refine congrArg₂ Ideal.div ?_ ?_
  · refine (shapeCast_ab_ab1_apply _ _ c h (0 : Fin 1)).trans ?_
    refine (sum_last_apply _ _ _ _ _ c h).trans ?_
    exact Finset.sum_congr rfl fun w _ => pay5_apply v4 v7 c h w
  · refine congrArg₂ (· * ·) (congrArg₂ max (congrArg Ideal.sqrt ?_) rfl) (congrArg₂ max (congrArg Ideal.sqrt ?_) rfl)
    · refine (shapeCast_ab_ab1_apply _ _ c h (0 : Fin 1)).trans ?_
      refine (sum_last_apply _ _ _ _ _ c h).trans ?_
      exact Finset.sum_congr rfl fun w _ => pay7_apply v4 c h w
    · refine (shapeCast_ab_ab1_apply _ _ c h (0 : Fin 1)).trans ?_
      refine (sum_last_apply _ _ _ _ _ c h).trans ?_
      exact Finset.sum_congr rfl fun w _ => pay8_apply v7 c h w

/-- Channel `c`'s first stored piece of a trip, a `[1, 3, 1, 1]` vector, at `(0, c, 0, 0)`. -/
theorem row_piece_apply (v4 v7 : Vec Ideal S1x3x512x512 .f32) (c : Fin 3) :
    k0_pay1 (k0_pay9 v4 v7) (ix4 (0 : Fin 1) c (0 : Fin 1) (0 : Fin 1))
      = rowK (fun h w : Fin 512 => v4 (ix4 (0 : Fin 1) c h w)) (fun h w : Fin 512 => v7 (ix4 (0 : Fin 1) c h w)) :=
  (shapeCast_abc_1abc_apply _ _ (0 : Fin 1) c (0 : Fin 1) (0 : Fin 1)).trans (pay9_apply v4 v7 c)

/-! ## The column-normalized trace of one channel -/

/-- The column inner products `∑ h, x (h, w) · r (h, w)`, kept as a `[3, 1, 512]` array. -/
theorem pay6_apply (v4 v7 : Vec Ideal S1x3x512x512 .f32) (c : Fin 3) (w : Fin 512) :
    k0_pay6 v4 v7 (ix3 c (0 : Fin 1) w)
      = ∑ h : Fin 512, v4 (ix4 (0 : Fin 1) c h w) * v7 (ix4 (0 : Fin 1) c h w) := by
  unfold k0_pay6
  dsimp only
  refine (shapeCast_ab_a1b_apply _ _ c (0 : Fin 1) w).trans ?_
  refine (sum_mid_apply _ _ _ _ _ c w).trans ?_
  exact Finset.sum_congr rfl fun h _ => pay5_apply v4 v7 c h w

/-- The clamped column norms of `x`. -/
theorem pay10_apply (v4 : Vec Ideal S1x3x512x512 .f32) (c : Fin 3) (w : Fin 512) :
    k0_pay10 v4 (ix3 c (0 : Fin 1) w)
      = max (Ideal.sqrt (∑ h : Fin 512, v4 (ix4 (0 : Fin 1) c h w) * v4 (ix4 (0 : Fin 1) c h w))) eps := by
  unfold k0_pay10
  dsimp only
  refine congrArg₂ max (congrArg Ideal.sqrt ?_) rfl
  refine (shapeCast_ab_a1b_apply _ _ c (0 : Fin 1) w).trans ?_
  refine (sum_mid_apply _ _ _ _ _ c w).trans ?_
  exact Finset.sum_congr rfl fun h _ => pay7_apply v4 c h w

/-- The column norms of `r`, before the clamp. -/
theorem pay11_apply (v7 : Vec Ideal S1x3x512x512 .f32) (c : Fin 3) (w : Fin 512) :
    k0_pay11 v7 (ix3 c (0 : Fin 1) w)
      = Ideal.sqrt (∑ h : Fin 512, v7 (ix4 (0 : Fin 1) c h w) * v7 (ix4 (0 : Fin 1) c h w)) := by
  unfold k0_pay11
  dsimp only
  refine congrArg Ideal.sqrt ?_
  refine (shapeCast_ab_a1b_apply _ _ c (0 : Fin 1) w).trans ?_
  refine (sum_mid_apply _ _ _ _ _ c w).trans ?_
  exact Finset.sum_congr rfl fun h _ => pay8_apply v7 c h w

/-- Channel `c`'s second stored piece of a trip at `(0, c, 0, 0)`: the same arrangement on the transposed matrices —
    column inner products over the product of the clamped column norms, summed over the columns, times `2⁻⁹`. -/
theorem col_piece_apply (v4 v7 : Vec Ideal S1x3x512x512 .f32) (c : Fin 3) :
    k0_pay2 (k0_pay6 v4 v7) (k0_pay10 v4) (k0_pay11 v7) (Scalar.ofBits .f32 0x2B8CBCCC#32)
        (ix4 (0 : Fin 1) c (0 : Fin 1) (0 : Fin 1))
      = rowK (fun w h : Fin 512 => v4 (ix4 (0 : Fin 1) c h w)) (fun w h : Fin 512 => v7 (ix4 (0 : Fin 1) c h w)) := by
  unfold k0_pay2 rowK
  dsimp only
  refine (shapeCast_abc_1abc_apply _ _ (0 : Fin 1) c (0 : Fin 1) (0 : Fin 1)).trans ?_
  refine congrArg₂ (· * ·) ?_ rfl
  refine (shapeCast_ab_ab1_apply _ _ c (0 : Fin 1) (0 : Fin 1)).trans ?_
  refine (sum_last_apply _ _ _ _ _ c (0 : Fin 1)).trans ?_
  refine Finset.sum_congr rfl fun w _ => ?_
  refine congrArg₂ Ideal.div (pay6_apply v4 v7 c w) ?_
  exact congrArg₂ (· * ·) (pay10_apply v4 c w) (congrArg₂ max (pay11_apply v7 c w) rfl)

end Cert.KernelTrace

end
-- ==== Proof.KernelBlock.lean ====
/-
  What one grid point leaves in the output block, as a function of the point's two input blocks.

  A grid point holds two `[2, 3, 512, 512]` input blocks `x`, `r` (two batch rows) and writes a `[2, 6, 1, 1]` output
  block in two trips: trip `k` stores, for batch row `k`, the three row-normalized traces of the channels at columns
  `0 … 2` and the three column-normalized traces at columns `3 … 5`. So the block at `(k, d, 0, 0)` is the row trace of
  channel `d` of batch row `k` when `d < 3`, and the column trace of channel `d - 3` otherwise: the four stored pieces
  are restrictions of that one function, and together they cover the block.
-/
import proofs.«174782_j4131758539314_2_alg».proof.Proof.Gen.KernelIdeal.Frame
import proofs.«174782_j4131758539314_2_alg».proof.Proof.KernelPayload
import Idealize.ShloMosaic.Lib.Pipeline.Value
import Idealize.ShloMosaic.Lib.ValueIdx

set_option maxRecDepth 16384

noncomputable section

namespace Cert.KernelTrace

open Idealize.ShloMosaic Idealize.ShloMosaic.ValueIdx Idealize.ShloMosaic.TcCoe Idealize.SL.Sem
open Cert.KernelIdeal Cert.KernelIdeal.Gen Cert.TraceSpec

/-- The output block of a grid point at `(k, d, 0, 0)`, from the point's input blocks: the row-normalized trace of
    channel `d` of batch row `k` for `d < 3`, the column-normalized trace (the same arrangement on the transposed
    matrices) of channel `d - 3` otherwise. -/
def blockVal (x0 x1 : Vec Ideal S2x3x512x512 .f32) (k : Fin 2) (d : Fin 6) : EReal :=
  if hd : d.val < 3 then
    rowK (fun h w : Fin 512 => x0 (ix4 k (⟨d.val, hd⟩ : Fin 3) h w)) (fun h w : Fin 512 => x1 (ix4 k (⟨d.val, hd⟩ : Fin 3) h w))
  else
    rowK (fun w h : Fin 512 => x0 (ix4 k (⟨d.val - 3, by have := d.isLt; omega⟩ : Fin 3) h w))
      (fun w h : Fin 512 => x1 (ix4 k (⟨d.val - 3, by have := d.isLt; omega⟩ : Fin 3) h w))

/-- At a column below three the block holds a row trace. -/
theorem blockVal_lo (x0 x1 : Vec Ideal S2x3x512x512 .f32) (k' : Fin 2) (d : Fin 6) (k : Fin 2) (c : Fin 3)
    (hk : k'.val = k.val) (hd : d.val = c.val) :
    blockVal x0 x1 k' d = rowK (fun h w : Fin 512 => x0 (ix4 k c h w)) (fun h w : Fin 512 => x1 (ix4 k c h w)) := by
  obtain rfl : k' = k := Fin.ext hk
  have hlt : d.val < 3 := by have := c.isLt; omega
  obtain rfl : c = ⟨d.val, hlt⟩ := Fin.ext hd.symm
  unfold blockVal; rw [dif_pos hlt]

/-- At a column from three on it holds a column trace. -/
theorem blockVal_hi (x0 x1 : Vec Ideal S2x3x512x512 .f32) (k' : Fin 2) (d : Fin 6) (k : Fin 2) (c : Fin 3)
    (hk : k'.val = k.val) (hd : d.val = c.val + 3) :
    blockVal x0 x1 k' d = rowK (fun w h : Fin 512 => x0 (ix4 k c h w)) (fun w h : Fin 512 => x1 (ix4 k c h w)) := by
  obtain rfl : k' = k := Fin.ext hk
  have hnl : ¬ d.val < 3 := by omega
  have hc : (⟨d.val - 3, by have := d.isLt; omega⟩ : Fin 3) = c := Fin.ext (by show d.val - 3 = c.val; omega)
  unfold blockVal; rw [dif_neg hnl, hc]

/-! ## The pieces the two trips store -/

section Pieces

variable (c : Dev nD) (i : grid0.Coords) (arg1 : Memref sig .tc .vmem S2x3x512x512 .f32) (harg1 : arg1.IsWhole)
  (arg2 : Memref sig .tc .vmem S2x3x512x512 .f32) (harg2 : arg2.IsWhole) (arg3 : Memref sig .tc .vmem S2x6x1x1 .f32) (harg3 : arg3.IsWhole)

/-- Every stored piece is a piece of some trip. -/
theorem mem_pb {F : FTy → Type} [FloatOps F] (X1 : BufTy.Contents (Elt F) arg1.view.ty) (X2 : BufTy.Contents (Elt F) arg2.view.ty)
    (p : View.Piece (Elt F) S2x6x1x1 .f32) :
    ∀ n, p ∈ pb_k0_t1 (F := F) Variants.none c none i arg1 harg1 arg2 harg2 arg3 harg3 X1 X2 n →
      ∃ k, p ∈ tripL_k0_t1 (F := F) Variants.none c none i arg1 harg1 arg2 harg2 arg3 harg3 X1 X2 k
  | 0, h => by simp [pb_k0_t1] at h
  | n + 1, h => by
    rw [pb_k0_t1] at h
    unfold pb_k0_t1Step at h
    split at h
    · rename_i hn
      rcases List.mem_append.mp h with h | h
      · exact ⟨⟨n, hn⟩, h⟩
      · exact mem_pb X1 X2 p n h
    · exact mem_pb X1 X2 p n h

/-- Trip `k` stores two pieces: the column traces at `(k, 3 … 5)` and the row traces at `(k, 0 … 2)`, each computed from
    batch row `k` of the two input blocks. -/
theorem tripL_eq {F : FTy → Type} [FloatOps F] (X1 : BufTy.Contents (Elt F) arg1.view.ty) (X2 : BufTy.Contents (Elt F) arg2.view.ty)
    (k : Fin k0_t1_loop.trips) :
    tripL_k0_t1 (F := F) Variants.none c none i arg1 harg1 arg2 harg2 arg3 harg3 X1 X2 k
      = [⟨Rect.unit (s := S2x6x1x1) (k0_off3 k) S1x3x1x1.size (k0_off3_inb k),
            k0_pay2
              (k0_pay6 (View.readAt (Elt F) arg1.view (Rect.unit (s := S2x3x512x512) (k0_off1 k) S1x3x512x512.size (k0_off1_inb k)).toLoadRect X1)
                (View.readAt (Elt F) arg2.view (Rect.unit (s := S2x3x512x512) (k0_off1 k) S1x3x512x512.size (k0_off1_inb k)).toLoadRect X2))
              (k0_pay10 (View.readAt (Elt F) arg1.view (Rect.unit (s := S2x3x512x512) (k0_off1 k) S1x3x512x512.size (k0_off1_inb k)).toLoadRect X1))
              (k0_pay11 (View.readAt (Elt F) arg2.view (Rect.unit (s := S2x3x512x512) (k0_off1 k) S1x3x512x512.size (k0_off1_inb k)).toLoadRect X2))
              (FloatOps.ofBits .f32 0x2B8CBCCC#32)⟩,
         ⟨Rect.unit (s := S2x6x1x1) (k0_off2 k) S1x3x1x1.size (k0_off2_inb k),
            k0_pay1
              (k0_pay9 (View.readAt (Elt F) arg1.view (Rect.unit (s := S2x3x512x512) (k0_off1 k) S1x3x512x512.size (k0_off1_inb k)).toLoadRect X1)
                (View.readAt (Elt F) arg2.view (Rect.unit (s := S2x3x512x512) (k0_off1 k) S1x3x512x512.size (k0_off1_inb k)).toLoadRect X2))⟩] := by
  unfold tripL_k0_t1 trip_k0_t1
  rfl

/-- Trip `k`'s load rectangle of an input block places `(0, c, h, w)` at `(k, c, h, w)`. -/
theorem slab_idx (k : Fin k0_t1_loop.trips) (kk : Fin 2) (hkk : kk.val = k.val) (cc : Fin 3) (h w : Fin 512) :
    (Rect.unit (s := S2x3x512x512) (k0_off1 k) S1x3x512x512.size (k0_off1_inb k)).idx (ix4 (0 : Fin 1) cc h w)
      = ix4 kk cc h w := by
  refine funext fun a => Fin.ext ?_
  have e := k0_off1_eq k
  match a with
  | ⟨0, _⟩ => show k0_off1 k 0 + 1 * 0 = kk.val; rw [e, hkk]; rfl
  | ⟨1, _⟩ => show k0_off1 k 1 + 1 * cc.val = cc.val; rw [e]; show 0 + 1 * cc.val = cc.val; omega
  | ⟨2, _⟩ => show k0_off1 k 2 + 1 * h.val = h.val; rw [e]; show 0 + 1 * h.val = h.val; omega
  | ⟨3, _⟩ => show k0_off1 k 3 + 1 * w.val = w.val; rw [e]; show 0 + 1 * w.val = w.val; omega

/-- So the slab a trip loads from a block with contents `X` is batch row `k` of `X`. -/
theorem slab_read (arg : Memref sig .tc .vmem S2x3x512x512 .f32) (harg : arg.IsWhole) (X : Vec Ideal S2x3x512x512 .f32)
    (k : Fin k0_t1_loop.trips) (kk : Fin 2) (hkk : kk.val = k.val) (cc : Fin 3) (h w : Fin 512) :
    View.readAt (Elt Ideal) arg.view (Rect.unit (s := S2x3x512x512) (k0_off1 k) S1x3x512x512.size (k0_off1_inb k)).toLoadRect
        (harg.unread X) (ix4 (0 : Fin 1) cc h w) = X (ix4 kk cc h w) := by
  show arg.view.read (Elt Ideal) (harg.unread X)
      ((Rect.unit (s := S2x3x512x512) (k0_off1 k) S1x3x512x512.size (k0_off1_inb k)).idx (ix4 (0 : Fin 1) cc h w)) = _
  rw [harg.read_unread, slab_idx k kk hkk cc h w]

/-- Every index of a `[1, 3, 1, 1]` piece is `(0, c, 0, 0)` for a channel `c`. -/
theorem piece_idx (x : S1x3x1x1.Idx) : ∃ cc : Fin 3, x = ix4 (0 : Fin 1) cc (0 : Fin 1) (0 : Fin 1) :=
  ⟨x 1, by
    funext a
    match a with
    | ⟨0, _⟩ => exact Fin.ext (by have h0 : (x 0).val < 1 := (x 0).isLt; show (x 0).val = 0; omega)
    | ⟨1, _⟩ => rfl
    | ⟨2, _⟩ => exact Fin.ext (by have h0 : (x 2).val < 1 := (x 2).isLt; show (x 2).val = 0; omega)
    | ⟨3, _⟩ => exact Fin.ext (by have h0 : (x 3).val < 1 := (x 3).isLt; show (x 3).val = 0; omega)⟩

/-- The row piece of trip `k` is the block function on the piece's rectangle `(k, 0 … 2, 0, 0)`. -/
theorem row_piece_block (x0 x1 : Vec Ideal S2x3x512x512 .f32) (k : Fin k0_t1_loop.trips) (x : S1x3x1x1.Idx) :
    k0_pay1 (k0_pay9
        (View.readAt (Elt Ideal) arg1.view (Rect.unit (s := S2x3x512x512) (k0_off1 k) S1x3x512x512.size (k0_off1_inb k)).toLoadRect (harg1.unread x0))
        (View.readAt (Elt Ideal) arg2.view (Rect.unit (s := S2x3x512x512) (k0_off1 k) S1x3x512x512.size (k0_off1_inb k)).toLoadRect (harg2.unread x1))) x
      = blockVal x0 x1 ((Rect.unit (s := S2x6x1x1) (k0_off2 k) S1x3x1x1.size (k0_off2_inb k)).emb x 0)
          ((Rect.unit (s := S2x6x1x1) (k0_off2 k) S1x3x1x1.size (k0_off2_inb k)).emb x 1) := by
  have hk2 : k.val < 2 := Nat.lt_of_lt_of_le k.isLt k0_t1_abs.2.1
  obtain ⟨cc, rfl⟩ := piece_idx x
  refine (row_piece_apply _ _ cc).trans ?_
  refine Eq.trans ?_ (blockVal_lo x0 x1 _ _ ⟨k.val, hk2⟩ cc ?_ ?_).symm
  · exact congrArg₂ rowK (funext fun h => funext fun w => slab_read arg1 harg1 x0 k ⟨k.val, hk2⟩ rfl cc h w)
      (funext fun h => funext fun w => slab_read arg2 harg2 x1 k ⟨k.val, hk2⟩ rfl cc h w)
  · show k0_off2 k 0 + 1 * 0 = k.val; rw [k0_off2_eq k]; rfl
  · show k0_off2 k 1 + 1 * cc.val = cc.val; rw [k0_off2_eq k]; show 0 + 1 * cc.val = cc.val; omega

/-- The column piece of trip `k` is the block function on the piece's rectangle `(k, 3 … 5, 0, 0)`. -/
theorem col_piece_block (x0 x1 : Vec Ideal S2x3x512x512 .f32) (k : Fin k0_t1_loop.trips) (x : S1x3x1x1.Idx) :
    k0_pay2
        (k0_pay6
          (View.readAt (Elt Ideal) arg1.view (Rect.unit (s := S2x3x512x512) (k0_off1 k) S1x3x512x512.size (k0_off1_inb k)).toLoadRect (harg1.unread x0))
          (View.readAt (Elt Ideal) arg2.view (Rect.unit (s := S2x3x512x512) (k0_off1 k) S1x3x512x512.size (k0_off1_inb k)).toLoadRect (harg2.unread x1)))
        (k0_pay10 (View.readAt (Elt Ideal) arg1.view (Rect.unit (s := S2x3x512x512) (k0_off1 k) S1x3x512x512.size (k0_off1_inb k)).toLoadRect (harg1.unread x0)))
        (k0_pay11 (View.readAt (Elt Ideal) arg2.view (Rect.unit (s := S2x3x512x512) (k0_off1 k) S1x3x512x512.size (k0_off1_inb k)).toLoadRect (harg2.unread x1)))
        (FloatOps.ofBits .f32 0x2B8CBCCC#32) x
      = blockVal x0 x1 ((Rect.unit (s := S2x6x1x1) (k0_off3 k) S1x3x1x1.size (k0_off3_inb k)).emb x 0)
          ((Rect.unit (s := S2x6x1x1) (k0_off3 k) S1x3x1x1.size (k0_off3_inb k)).emb x 1) := by
  have hk2 : k.val < 2 := Nat.lt_of_lt_of_le k.isLt k0_t1_abs.2.1
  obtain ⟨cc, rfl⟩ := piece_idx x
  refine (col_piece_apply _ _ cc).trans ?_
  refine Eq.trans ?_ (blockVal_hi x0 x1 _ _ ⟨k.val, hk2⟩ cc ?_ ?_).symm
  · exact congrArg₂ rowK (funext fun w => funext fun h => slab_read arg1 harg1 x0 k ⟨k.val, hk2⟩ rfl cc h w)
      (funext fun w => funext fun h => slab_read arg2 harg2 x1 k ⟨k.val, hk2⟩ rfl cc h w)
  · show k0_off3 k 0 + 1 * 0 = k.val; rw [k0_off3_eq k]; rfl
  · show k0_off3 k 1 + 1 * cc.val = cc.val + 3; rw [k0_off3_eq k]; show 3 + 1 * cc.val = cc.val + 3; omega

/-- THE BLOCK: what a grid point leaves in its output block, at every index, is the block function of the point's
    two input blocks — the stored pieces all restrict it, and they cover the block. -/
theorem out_block_apply (x0 x1 : Vec Ideal S2x3x512x512 .f32) (y : S2x6x1x1.Idx) :
    out0_A_2 (F := Ideal) c i arg1 harg1 arg2 harg2 arg3 harg3 x0 x1 y = blockVal x0 x1 (y 0) (y 1) := by
  unfold out0_A_2
  rw [View.read_writes_eq_canon _ _ _ (cover0_A_2 c i arg1 harg1 arg2 harg2 arg3 harg3 x0 x1)]
  refine View.canon_apply_of_pieces (fun y : S2x6x1x1.Idx => blockVal x0 x1 (y 0) (y 1)) _ ?_ y
    (cover0_A_2 c i arg1 harg1 arg2 harg2 arg3 harg3 x0 x1 y)
  intro p hp x
  unfold kernelRun0_A at hp
  dsimp only at hp
  obtain ⟨k, hk⟩ := mem_pb c i arg1 harg1 arg2 harg2 arg3 harg3 _ _ p _ hp
  rw [tripL_eq] at hk
  rcases List.mem_cons.mp hk with rfl | hk
  · exact col_piece_block arg1 harg1 arg2 harg2 x0 x1 k x
  · rcases List.mem_cons.mp hk with rfl | hk
    · exact row_piece_block arg1 harg1 arg2 harg2 x0 x1 k x
    · exact absurd hk List.not_mem_nil

end Pieces

end Cert.KernelTrace

end
-- ==== Proof.KernelArray.lean ====
/-
  From the blocks to the array: what the kernel's output array holds after the run.

  The grid has eight points. Point `t` reads batch rows `2t` and `2t + 1` of the two `[16, 3, 512, 512]` argument
  arrays and writes back rows `2t` and `2t + 1` of the `[16, 6, 1, 1]` output array. Its output block at `(k, d, 0, 0)`
  is the normalized trace of batch row `k` of its input blocks (by rows of channel `d` for `d < 3`, by columns of channel
  `d - 3` otherwise), and batch row `k` of its input blocks is batch row `2t + k` of the arrays. So what point `t` writes
  back is block `t` of ONE function of the argument arrays, `outArr`; the eight blocks tile the sixteen rows (row `r` is
  in the block of point `r / 2`), so the array ends holding `outArr` of the arguments.
-/
import proofs.«174782_j4131758539314_2_alg».proof.Proof.KernelBlock

set_option maxRecDepth 16384

noncomputable section

namespace Cert.KernelTrace

open Idealize.ShloMosaic Idealize.ShloMosaic.ValueIdx Idealize.ShloMosaic.TcCoe Idealize.SL.Sem
open Cert.KernelIdeal Cert.KernelIdeal.Gen Cert.TraceSpec
open Idealize.ShloMosaic.Pipeline (Dat)

/-- The output array at `(b, d, 0, 0)`, from the two argument arrays: the row-normalized trace of channel `d` of
    batch row `b` for `d < 3`, the column-normalized trace (the same arrangement on the transposed matrices) of
    channel `d - 3` otherwise. -/
def outVal (X R : S16x3x512x512.Idx → EReal) (b : Fin 16) (d : Fin 6) : EReal :=
  if hd : d.val < 3 then
    rowK (fun h w : Fin 512 => X (ix4 b (⟨d.val, hd⟩ : Fin 3) h w)) (fun h w : Fin 512 => R (ix4 b (⟨d.val, hd⟩ : Fin 3) h w))
  else
    rowK (fun w h : Fin 512 => X (ix4 b (⟨d.val - 3, by have := d.isLt; omega⟩ : Fin 3) h w))
      (fun w h : Fin 512 => R (ix4 b (⟨d.val - 3, by have := d.isLt; omega⟩ : Fin 3) h w))

/-- The output array as one function of the argument arrays. -/
def outArr (X R : S16x3x512x512.Idx → EReal) : S16x6x1x1.Idx → EReal := fun y => outVal X R (y 0) (y 1)

/-- A block whose batch row `k` is batch row `b` of the arrays has, at row `k`, the arrays' values at row `b`. -/
theorem blockVal_eq_outVal (x0 x1 : Vec Ideal S2x3x512x512 .f32) (X R : S16x3x512x512.Idx → EReal) (k : Fin 2) (b : Fin 16)
    (h0 : ∀ (cc : Fin 3) (h w : Fin 512), x0 (ix4 k cc h w) = X (ix4 b cc h w))
    (h1 : ∀ (cc : Fin 3) (h w : Fin 512), x1 (ix4 k cc h w) = R (ix4 b cc h w)) (d : Fin 6) :
    blockVal x0 x1 k d = outVal X R b d := by
  unfold blockVal outVal
  by_cases hd : d.val < 3
  · rw [dif_pos hd, dif_pos hd]; simp only [h0, h1]
  · rw [dif_neg hd, dif_neg hd]; simp only [h0, h1]

variable (m : (ℓ : Loc nD τ sig) → Buf (Elt Ideal) ℓ)

/-- The printed index maps, decided once over the grid: at point `t` every window's block index is `(t, 0, 0, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The first argument's block at point `t` is its batch rows `2t`, `2t + 1`: a block's coordinate on an axis is the
    block index times the block's size plus the coordinate inside the block. -/
theorem iblk0_apply (c : Dev nD) (t : Fin cfg0.N) (y : S2x3x512x512.Idx) (i : S16x3x512x512.Idx)
    (h0 : (i 0).val = 2 * t.val + (y 0).val) (h1 : (i 1).val = (y 1).val) (h2 : (i 2).val = (y 2).val) (h3 : (i 3).val = (y 3).val) :
    (iblk m c 0 t : Vec Ideal S2x3x512x512 .f32) y = V m c main_arg0 i := by
  obtain ⟨e0, e1, e2, e3, -⟩ := idx_facts t
  show V m c main_arg0 (((cfg0.win 0).blk t).view.emb y) = V m c main_arg0 i
  refine congrArg (V m c main_arg0) (funext fun a => Fin.ext ?_)
  match a with
  | ⟨0, _⟩ => show win0_0.index t (0 : Fin 4) * 2 + 1 * (y 0).val = (i 0).val; omega
  | ⟨1, _⟩ => show win0_0.index t (1 : Fin 4) * 3 + 1 * (y 1).val = (i 1).val; omega
  | ⟨2, _⟩ => show win0_0.index t (2 : Fin 4) * 512 + 1 * (y 2).val = (i 2).val; omega
  | ⟨3, _⟩ => show win0_0.index t (3 : Fin 4) * 512 + 1 * (y 3).val = (i 3).val; omega

/-- The second argument's block at point `t` is its batch rows `2t`, `2t + 1`. -/
theorem iblk1_apply (c : Dev nD) (t : Fin cfg0.N) (y : S2x3x512x512.Idx) (i : S16x3x512x512.Idx)
    (h0 : (i 0).val = 2 * t.val + (y 0).val) (h1 : (i 1).val = (y 1).val) (h2 : (i 2).val = (y 2).val) (h3 : (i 3).val = (y 3).val) :
    (iblk m c 1 t : Vec Ideal S2x3x512x512 .f32) y = V m c main_arg1 i := by
  obtain ⟨-, -, -, -, e0, e1, e2, e3, -⟩ := idx_facts t
  show V m c main_arg1 (((cfg0.win 1).blk t).view.emb y) = V m c main_arg1 i
  refine congrArg (V m c main_arg1) (funext fun a => Fin.ext ?_)
  match a with
  | ⟨0, _⟩ => show win0_1.index t (0 : Fin 4) * 2 + 1 * (y 0).val = (i 0).val; omega
  | ⟨1, _⟩ => show win0_1.index t (1 : Fin 4) * 3 + 1 * (y 1).val = (i 1).val; omega
  | ⟨2, _⟩ => show win0_1.index t (2 : Fin 4) * 512 + 1 * (y 2).val = (i 2).val; omega
  | ⟨3, _⟩ => show win0_1.index t (3 : Fin 4) * 512 + 1 * (y 3).val = (i 3).val; omega

/-- Point `t`'s output block at row `k` is the output array's value at row `2t + k`. -/
theorem block_eq_outVal (c : Dev nD) (t : Fin cfg0.N) (k : Fin 2) (b : Fin 16) (hb : b.val = 2 * t.val + k.val) (d : Fin 6) :
    blockVal (iblk m c 0 t) (iblk m c 1 t) k d = outVal (V m c main_arg0) (V m c main_arg1) b d :=
  blockVal_eq_outVal _ _ _ _ k b
    (fun cc h w => iblk0_apply m c t (ix4 k cc h w) (ix4 b cc h w) hb rfl rfl rfl)
    (fun cc h w => iblk1_apply m c t (ix4 k cc h w) (ix4 b cc h w) hb rfl rfl rfl) d

/-- WHAT POINT `t` WRITES BACK is block `t` of `outArr` of the argument arrays as the region finds them. -/
theorem flushed_eq (c : Dev nD) (t : Fin cfg0.N) :
    (dats (F := Ideal) m 0 c).flushed 2 t
      = ((cfg0.win 2).blk t).view.read (Elt Ideal) (outArr (V m c main_arg0) (V m c main_arg1)) := by
  show (cfg0.win 2).cut (grid0.coords t) ((dats m 0 c).after 2 t) = _
  rw [after0_2]
  obtain ⟨-, -, -, -, -, -, -, -, e0, e1, e2, e3⟩ := idx_facts t
  funext y
  show out0_A_2 (F := Ideal) c (grid0.coords t) (ms0_0 t) (hs0_0 t) (ms0_1 t) (hs0_1 t) (ms0_2 t) (hs0_2 t) (iblk m c 0 t) (iblk m c 1 t) y
      = outVal (V m c main_arg0) (V m c main_arg1) ((((cfg0.win 2).blk t).view.emb y) 0) ((((cfg0.win 2).blk t).view.emb y) 1)
  rw [out_block_apply]
  have hd : (((cfg0.win 2).blk t).view.emb y) 1 = y 1 := Fin.ext (by
    show win0_2.index t (1 : Fin 4) * 6 + 1 * (y 1).val = (y 1).val; omega)
  rw [hd]
  exact block_eq_outVal m c t (y 0) _ (by
    show win0_2.index t (0 : Fin 4) * 2 + 1 * (y 0).val = 2 * t.val + (y 0).val; omega) (y 1)

/-- An index of the array is in point `t`'s block iff each coordinate is in the block's range on its axis. -/
theorem mem_blk (t : Fin cfg0.N) (i : S16x6x1x1.Idx) :
    i ∈ ((cfg0.win 2).blk t).view.set ↔ ∀ a : Fin 4, win0_2.index t a * S2x6x1x1.size a ≤ (i a).val ∧ (i a).val < win0_2.index t a * S2x6x1x1.size a + S2x6x1x1.size a := by
  show i ∈ ((View.whole main_v0).slice (win0_2.rect t)).set ↔ _
  rw [View.set_slice_whole, Rect.mem_set_unit]
  exact Iff.rfl

/-- Every index of the array is in some point's block: batch row `r` is in the block of point `r / 2`. -/
theorem cover (i : S16x6x1x1.Idx) : ∃ t : Fin cfg0.N, (cfg0.win 2).flush t = true ∧ i ∈ ((cfg0.win 2).blk t).view.set := by
  have hN : cfg0.N = 8 := N_0
  have hi0 : (i 0).val < 16 := (i 0).isLt
  have hi1 : (i 1).val < 6 := (i 1).isLt
  have hi2 : (i 2).val < 1 := (i 2).isLt
  have hi3 : (i 3).val < 1 := (i 3).isLt
  obtain ⟨t, ht⟩ : ∃ t : Fin cfg0.N, t.val = (i 0).val / 2 := ⟨⟨(i 0).val / 2, by omega⟩, rfl⟩
  obtain ⟨-, -, -, -, -, -, -, -, e0, e1, e2, e3⟩ := idx_facts t
  refine ⟨t, flush0_2 t, ?_⟩
  rw [mem_blk]
  intro a
  match a with
  | ⟨0, _⟩ => show win0_2.index t (0 : Fin 4) * 2 ≤ (i 0).val ∧ (i 0).val < win0_2.index t (0 : Fin 4) * 2 + 2; omega
  | ⟨1, _⟩ => show win0_2.index t (1 : Fin 4) * 6 ≤ (i 1).val ∧ (i 1).val < win0_2.index t (1 : Fin 4) * 6 + 6; omega
  | ⟨2, _⟩ => show win0_2.index t (2 : Fin 4) * 1 ≤ (i 2).val ∧ (i 2).val < win0_2.index t (2 : Fin 4) * 1 + 1; omega
  | ⟨3, _⟩ => show win0_2.index t (3 : Fin 4) * 1 ≤ (i 3).val ∧ (i 3).val < win0_2.index t (3 : Fin 4) * 1 + 1; omega

/-- THE ARRAY after the run: `outArr` of the two argument arrays as launched. -/
theorem final (c : Dev nD) :
    (dats (F := Ideal) m 0 c).arrAt 2 cfg0.N
      = outArr (m ((c : Thread nD τ).loc main_arg0)) (m ((c : Thread nD τ).loc main_arg1)) :=
  ((dats (F := Ideal) m 0 c).arrAt_eq_of_cover 2 (outArr (V m c main_arg0) (V m c main_arg1))
      (fun t _ => flushed_eq m c t) cover).trans (by rw [V_main_arg0, V_main_arg1])

end Cert.KernelTrace

end
-- ==== Proof.KernelTail.lean ====
/-
  The kernel program's last operations, read as the common tail.

  After its one region the kernel program casts the region's `[16, 6, 1, 1]` output array to `[16, 6]`, cuts it
  along its columns into the halves `[0, 3)` and `[3, 6)`, and then runs, on the two `[16, 3]` halves, the same
  operations the reference program ends with: multiply by the weights, sum over both axes from the zero word,
  negate, divide by `16`, add. This module reads the contents of the result buffer after those operations: it is
  `tail` of the two halves of the array the region leaves.

  Two buffers are read on the way. The output array is one of the region's windows, so after the region it holds
  what the region's proof data say; the weights' constant was written by the one operation before the region and is
  no window's array, so it still holds the constant.
-/
import proofs.«174782_j4131758539314_2_alg».proof.Proof.Gen.KernelIdeal.Frame
import proofs.«174782_j4131758539314_2_alg».proof.Proof.HostTail
import Idealize.ShloMosaic.Lib.StableHlo.Run
import Idealize.ShloMosaic.Lib.Pipeline.Value
import Idealize.ShloMosaic.Lib.Pipeline.FrameSuffix

noncomputable section

namespace Cert.KernelTrace

open Idealize.ShloMosaic Idealize.ShloMosaic.ValueIdx Idealize.ShloMosaic.TcCoe Idealize.SL.Sem Cert.KernelIdeal Cert.KernelIdeal.Gen
open Idealize.ShloMosaic.StableHlo

/-- The weights' buffer at the region's entry: the operation before the region wrote the constant `1` of shape `[3]`. -/
theorem V_cst (m : (ℓ : Loc nD τ sig) → Buf (Elt Ideal) ℓ) (c : Dev nD) :
    (V0 (F := Ideal) m c (Proc.devRef .tc main_cst) : S3.Idx → EReal) = constant (F := Ideal) S3 .f32 0x3F800000#32 := by
  dsimp only [Gen.V0]
  simp only [Gen.hostOps0, List.flatten_cons, List.flatten_nil, List.append_nil]
  after_results

/-- The weights' buffer is no window's array. -/
theorem arrRef_ne_cst : ∀ w : Fin 3, Pipeline.arrRef spec0 w ≠ main_cst := by decide

/-- The result buffer after the operations that follow the region: the common tail of the low and the high half of
    the region's output array, cast to `[16, 6]`. -/
theorem tail_eq (m : (ℓ : Loc nD τ sig) → Buf (Elt Ideal) ℓ) (c : Dev nD) :
    Pipeline.afterTail₀ cfgs (dats (F := Ideal) m) 0 (V0 m) [hostOps1] c main_v16
      = Cert.HostTail.tail
          (extractStridedSlice S16x3 ![0, 0] (shapeCast S16x6 ((dats (F := Ideal) m 0 c).arrAt 2 cfg0.N) shapeCasts_S16x6x1x1_S16x6) slices_S16x6_S16x3_0_0)
          (extractStridedSlice S16x3 ![0, 3] (shapeCast S16x6 ((dats (F := Ideal) m 0 c).arrAt 2 cfg0.N) shapeCasts_S16x6x1x1_S16x6) slices_S16x6_S16x3_0_3) := by
  unfold Pipeline.afterTail₀
  show StableHlo.after hostOps1 _ (Proc.devRef .tc main_v16) = _
  after_results
  rw [Pipeline.withArrays_arr spec0 launch0.win.arr_inj c _ _ 2,
    Pipeline.withArrays_of_ne spec0 c _ _ main_cst arrRef_ne_cst, V_cst]
  unfold Cert.HostTail.tail
  rfl

end Cert.KernelTrace

end
-- ==== Proof.lean ====
/-
  The certificate of the normalized-trace loss kernel against its jnp reference.

  Both programs compute, for inputs `x`, `r : f32[16, 3, 512, 512]`, the scalar
  `-(∑_{b,c} A(b,c) · 1) / 16 + -(∑_{b,c} B(b,c) · 1) / 16`, where `A(b,c)` is the trace of the product of the
  row-normalized `512 × 512` matrices `x[b,c]`, `r[b,c]` divided by `512`, and `B(b,c)` the same with columns
  normalized (a norm is clamped below by `ε`). The reference normalizes every entry and then sums the products; the kernel
  sums the raw products along a row (or a column), divides the inner product by the product of the two clamped norms,
  sums those quotients and multiplies by `2⁻⁹`. With every input entry a real number — the precondition — every norm is
  a positive real, so the denominators come out of the inner sums and the two arrangements agree
  (`TraceSpec.rowK_eq_rowR`); the final weighted sum over `(b, c)`, the negation, the division by `16` and the addition
  are the same operations in both programs and are never opened.

  The kernel's side: each grid point leaves in its `[2, 6, 1, 1]` output block the traces of its two batch rows
  (`KernelTrace.out_block_apply`); the eight blocks tile the `[16, 6, 1, 1]` result (`KernelTrace.final`); the host
  operations after the region reshape it to `[16, 6]`, split the columns `0 … 2` and `3 … 5`, and apply the common tail
  (`KernelTrace.tail_eq`). The reference's side is its run read one operation at a time (`RefTrace.ref_row`,
  `RefTrace.ref_col`). The three frames are the programs' runs with the results dropped, and the idealization rewrote
  nothing.
-/
import proofs.«174782_j4131758539314_2_alg».proof.Defs
import proofs.«174782_j4131758539314_2_alg».proof.Proof.Gen.Kernel
import proofs.«174782_j4131758539314_2_alg».proof.Proof.Gen.Kernel.Skeleton
import proofs.«174782_j4131758539314_2_alg».proof.Proof.Gen.Kernel.Loops
import proofs.«174782_j4131758539314_2_alg».proof.Proof.Gen.Kernel.Launch
import proofs.«174782_j4131758539314_2_alg».proof.Proof.Gen.Kernel.Points
import proofs.«174782_j4131758539314_2_alg».proof.Proof.Gen.Kernel.Frame
import proofs.«174782_j4131758539314_2_alg».proof.Proof.Gen.KernelIdeal
import proofs.«174782_j4131758539314_2_alg».proof.Proof.Gen.KernelIdeal.Skeleton
import proofs.«174782_j4131758539314_2_alg».proof.Proof.Gen.KernelIdeal.Loops
import proofs.«174782_j4131758539314_2_alg».proof.Proof.Gen.KernelIdeal.Launch
import proofs.«174782_j4131758539314_2_alg».proof.Proof.Gen.KernelIdeal.Points
import proofs.«174782_j4131758539314_2_alg».proof.Proof.Gen.KernelIdeal.Frame
import proofs.«174782_j4131758539314_2_alg».proof.Proof.Gen.ReferenceIdeal
import proofs.«174782_j4131758539314_2_alg».proof.Proof.Gen.Pre_finite_inputs
import proofs.«174782_j4131758539314_2_alg».proof.Proof.Gen.ReferenceIdeal.Run
import proofs.«174782_j4131758539314_2_alg».proof.Proof.Gen.ReferenceIdeal.Read
import proofs.«174782_j4131758539314_2_alg».proof.Proof.TraceSpec
import proofs.«174782_j4131758539314_2_alg».proof.Proof.TraceLaw
import proofs.«174782_j4131758539314_2_alg».proof.Proof.RefTrace
import proofs.«174782_j4131758539314_2_alg».proof.Proof.HostTail
import proofs.«174782_j4131758539314_2_alg».proof.Proof.FiniteInputs
import proofs.«174782_j4131758539314_2_alg».proof.Proof.KernelPayload
import proofs.«174782_j4131758539314_2_alg».proof.Proof.KernelBlock
import proofs.«174782_j4131758539314_2_alg».proof.Proof.KernelArray
import proofs.«174782_j4131758539314_2_alg».proof.Proof.KernelTail
import Idealize.ShloMosaic.Adequacy
import Idealize.ShloMosaic.Init

noncomputable section

namespace Cert.Proof

open Idealize.ShloMosaic Idealize.ShloMosaic.ValueIdx Idealize.SL.Sem

/-! ## The two halves of the kernel's result are the reference's two `[16, 3]` arrays -/

section Halves

variable (X R : (⟨4, ![16, 3, 512, 512]⟩ : Shape).Idx → EReal)
  (hX : ∀ i, ∃ a : ℝ, X i = (a : EReal)) (hR : ∀ i, ∃ a : ℝ, R i = (a : EReal))

include hX hR in
/-- Columns `0 … 2` of the kernel's result: the row-normalized traces, as the reference computes them. -/
theorem lo_eq (b : Fin 16) (cc : Fin 3) :
    Cert.KernelTrace.outArr X R (ix4 b (⟨cc.val, by omega⟩ : Fin 6) (0 : Fin 1) (0 : Fin 1))
      = Cert.ReferenceIdeal.Read.val_main_v19 (F := Ideal) X R (ix2 b cc) := by
  have hlt : (⟨cc.val, by omega⟩ : Fin 6).val < 3 := cc.isLt
  show Cert.KernelTrace.outVal X R b (⟨cc.val, by omega⟩ : Fin 6) = _
  unfold Cert.KernelTrace.outVal
  rw [dif_pos hlt]
  refine (Cert.TraceSpec.rowK_eq_rowR _ _ (fun h w => hX _) (fun h w => hR _)).trans ?_
  exact (Cert.RefTrace.ref_row X R b cc).symm

include hX hR in
/-- Columns `3 … 5`: the column-normalized traces — the row arrangement on the transposed matrices on the kernel's
    side, the double sum taken in the other order on the reference's. -/
theorem hi_eq (b : Fin 16) (cc : Fin 3) :
    Cert.KernelTrace.outArr X R (ix4 b (⟨cc.val + 3, by omega⟩ : Fin 6) (0 : Fin 1) (0 : Fin 1))
      = Cert.ReferenceIdeal.Read.val_main_v39 (F := Ideal) X R (ix2 b cc) := by
  have hnl : ¬ (⟨cc.val + 3, by omega⟩ : Fin 6).val < 3 := by show ¬ cc.val + 3 < 3; omega
  have hc : (⟨(⟨cc.val + 3, by omega⟩ : Fin 6).val - 3, by show cc.val + 3 - 3 < 3; omega⟩ : Fin 3) = cc :=
    Fin.ext (by show cc.val + 3 - 3 = cc.val; omega)
  show Cert.KernelTrace.outVal X R b (⟨cc.val + 3, by omega⟩ : Fin 6) = _
  unfold Cert.KernelTrace.outVal
  rw [dif_neg hnl, hc]
  refine (Cert.TraceSpec.rowK_eq_rowR _ _ (fun w h => hX _) (fun w h => hR _)).trans ?_
  refine (Cert.TraceSpec.colR_eq_rowR_transpose _ _).symm.trans ?_
  exact (Cert.RefTrace.ref_col X R b cc).symm

end Halves

/-! ## The kernel's result -/

/-- The kernel's scalar result, under the precondition, is the reference's function of the two argument arrays. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    Pipeline.afterTail₀ Cert.KernelIdeal.cfgs (Cert.KernelIdeal.Gen.dats (F := Ideal) m) 0 (Cert.KernelIdeal.Gen.V0 m)
        [Cert.KernelIdeal.Gen.hostOps1] c Cert.KernelIdeal.main_v16
      = Cert.ReferenceIdeal.Read.val_main_v52 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  obtain ⟨hX, hR⟩ := Cert.FiniteInputs.real_of_pre m hpre c
  refine (Cert.KernelTrace.tail_eq m c).trans ?_
  refine (congrArg₂ Cert.HostTail.tail ?_ ?_).trans (Cert.HostTail.ref_tail _ _).symm
  · funext j
    obtain ⟨b, cc, rfl⟩ : ∃ (b : Fin 16) (cc : Fin 3), j = ix2 b cc := ⟨j 0, j 1, eq_ix2 j⟩
    refine (Cert.HostTail.slice_lo_apply _ _ _ b cc).trans ?_
    refine (congrFun (Cert.KernelTrace.final m c) _).trans ?_
    exact lo_eq _ _ (fun i => hX i) (fun i => hR i) b cc
  · funext j
    obtain ⟨b, cc, rfl⟩ : ∃ (b : Fin 16) (cc : Fin 3), j = ix2 b cc := ⟨j 0, j 1, eq_ix2 j⟩
    refine (Cert.HostTail.slice_hi_apply _ _ _ b cc).trans ?_
    refine (congrFun (Cert.KernelTrace.final m c) _).trans ?_
    exact hi_eq _ _ (fun i => hX i) (fun i => hR i) b cc

/-! ## The claims -/

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and end with the same scalar: the reference's
    function of the argument arrays. -/
theorem algebraic : Cert.algebraic_KernelIdeal_ReferenceIdeal := by
  intro m ρ m' ρ' hpre hagree
  refine ⟨fun c => Cert.ReferenceIdeal.Read.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Gen.run_main (F := Ideal) m ρ)
    · exact ((h c).2 Cert.KernelIdeal.main_v16 (Pipeline.mem_restRefs_of Cert.KernelIdeal.main_v16 rfl (by decide))).trans
        (kernel_value m hpre c)
    · exact ((h c).1 0).trans (((Cert.KernelIdeal.Gen.dats (F := Ideal) m 0 c).arrAt_in 0 rfl _).trans
        ((Cert.KernelIdeal.Gen.A_eq m c 0).trans (Cert.KernelIdeal.Gen.V_main_arg0 m c)))
    · exact ((h c).1 1).trans (((Cert.KernelIdeal.Gen.dats (F := Ideal) m 0 c).arrAt_in 1 rfl _).trans
        ((Cert.KernelIdeal.Gen.A_eq m c 1).trans (Cert.KernelIdeal.Gen.V_main_arg1 m c)))
  · refine (θ_run Cert.ReferenceIdeal.defs _ _).mono (fun r h c => ⟨?_, (h c).2⟩)
      (Cert.ReferenceIdeal.Value.run (F := Ideal) m' ρ')
    refine ((h c).1.trans (Cert.ReferenceIdeal.Read.val_main_v52_eq _ _)).trans ?_
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
